-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S128x256 : Shape := ⟨2, ![128, 256]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S128x256 .f32) (main_arg2 : FVec F S128 .f32) (main_arg3 : FVec F S256x128 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S32x256x64x64 : Shape := ⟨4, ![32, 256, 64, 64]⟩
abbrev S128x256 : Shape := ⟨2, ![128, 256]⟩
abbrev S128 : Shape := ⟨1, ![128]⟩
abbrev S256x128 : Shape := ⟨2, ![256, 128]⟩
abbrev S256 : Shape := ⟨1, ![256]⟩
abbrev S32x256x4096 : Shape := ⟨3, ![32, 256, 4096]⟩
abbrev S1x128 : Shape := ⟨2, ![1, 128]⟩
abbrev S1x256 : Shape := ⟨2, ![1, 256]⟩
abbrev S2x256x4096 : Shape := ⟨3, ![2, 256, 4096]⟩
abbrev S2x256 : Shape := ⟨2, ![2, 256]⟩
abbrev S2x256x1024 : Shape := ⟨3, ![2, 256, 1024]⟩
abbrev S4x256 : Shape := ⟨2, ![4, 256]⟩
abbrev S4x128 : Shape := ⟨2, ![4, 128]⟩
abbrev S2x256x1 : Shape := ⟨3, ![2, 256, 1]⟩

abbrev nBuf : Space → Nat
  | .hbm => 14
  | .vmem => 8
  | .smem => 0
  | _ => 0

abbrev bufTy : (tb : Table) → Fin (tcTables nBuf tb) → BufTy
  | .hbm, ⟨0, _⟩ => ⟨S32x256x64x64, .f32⟩
  | .hbm, ⟨1, _⟩ => ⟨S128x256, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S32x256x4096, .f32⟩
  | .hbm, ⟨6, _⟩ => ⟨S256x128, .f32⟩
  | .hbm, ⟨7, _⟩ => ⟨S256x128, .bf16⟩
  | .hbm, ⟨8, _⟩ => ⟨S128x256, .f32⟩
  | .hbm, ⟨9, _⟩ => ⟨S128x256, .bf16⟩
  | .hbm, ⟨10, _⟩ => ⟨S1x128, .f32⟩
  | .hbm, ⟨11, _⟩ => ⟨S1x256, .f32⟩
  | .hbm, ⟨12, _⟩ => ⟨S32x256x4096, .f32⟩
  | .hbm, ⟨13, _⟩ => ⟨S32x256x64x64, .f32⟩
  | .local _ .vmem, ⟨0, _⟩ => ⟨S2x256x4096, .f32⟩
  | .local _ .vmem, ⟨1, _⟩ => ⟨S2x256x4096, .f32⟩
  | .local _ .vmem, ⟨2, _⟩ => ⟨S256x128, .bf16⟩
  | .local _ .vmem, ⟨3, _⟩ => ⟨S1x128, .f32⟩
  | .local _ .vmem, ⟨4, _⟩ => ⟨S128x256, .bf16⟩
  | .local _ .vmem, ⟨5, _⟩ => ⟨S1x256, .f32⟩
  | .local _ .vmem, ⟨6, _⟩ => ⟨S2x256x4096, .f32⟩
  | .local _ .vmem, ⟨7, _⟩ => ⟨S2x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v2 : BitVec 32 := Scalar.muli c0_i32 c1024_i32
  v2
def k0_off1 (c0_i32 : BitVec 32) : Fin 3 → Nat :=
  let c0 : Index := 0#32
  let c0_1 : Index := 0#32
  let c1024_i32 : BitVec 32 := 1024#32
  let v2 : BitVec 32 := Scalar.muli c0_i32 c1024_i32
  let v3 : BitVec 32 := v2
  let v4 : Index := Scalar.indexCast v3
  ![0, 0, v4.toNat]
def k0_mult2 : BitVec 32 :=
  let c1_i32 : BitVec 32 := 1#32
  let c1024_i32_4 : BitVec 32 := 1024#32
  let v11 : BitVec 32 := Scalar.muli c1_i32 c1024_i32_4
  v11
def k0_mult3 : BitVec 32 :=
  let c2_i32 : BitVec 32 := 2#32
  let c1024_i32_9 : BitVec 32 := 1024#32
  let v20 : BitVec 32 := Scalar.muli c2_i32 c1024_i32_9
  v20
def k0_mult4 : BitVec 32 :=
  let c3_i32 : BitVec 32 := 3#32
  let c1024_i32_14 : BitVec 32 := 1024#32
  let v29 : BitVec 32 := Scalar.muli c3_i32 c1024_i32_14
  v29
def k0_mult5 : BitVec 32 :=
  let c0_i32_31 : BitVec 32 := 0#32
  let c1024_i32_32 : BitVec 32 := 1024#32
  let v63 : BitVec 32 := Scalar.muli c0_i32_31 c1024_i32_32
  v63
def k0_mult6 : BitVec 32 :=
  let c1_i32_37 : BitVec 32 := 1#32
  let c1024_i32_38 : BitVec 32 := 1024#32
  let v73 : BitVec 32 := Scalar.muli c1_i32_37 c1024_i32_38
  v73
def k0_mult7 : BitVec 32 :=
  let c2_i32_43 : BitVec 32 := 2#32
  let c1024_i32_44 : BitVec 32 := 1024#32
  let v83 : BitVec 32 := Scalar.muli c2_i32_43 c1024_i32_44
  v83
def k0_mult8 : BitVec 32 :=
  let c3_i32_49 : BitVec 32 := 3#32
  let c1024_i32_50 : BitVec 32 := 1024#32
  let v93 : BitVec 32 := Scalar.muli c3_i32_49 c1024_i32_50
  v93
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x64x64_S32x256x4096 : S32x256x64x64.ShapeCasts S32x256x4096
  transposes_S128x256_S256x128_1_0 : S128x256.Transposes [1, 0] S256x128
  bitsLt_bf16_f32 : FTy.bits .bf16 < FTy.bits .f32
  transposes_S256x128_S128x256_1_0 : S256x128.Transposes [1, 0] S128x256
  shapeCasts_S128_S1x128 : S128.ShapeCasts S1x128
  shapeCasts_S256_S1x256 : S256.ShapeCasts S1x256
  h_S2x256x1024 : 0 < S2x256x1024.numel
  shapeCasts_S2x256x1024_S2x256x1024 : S2x256x1024.ShapeCasts S2x256x1024
  reduces_S2x256x1024_S2x256 : S2x256x1024.Reduces [2] S2x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  concatenates_S2x256_S2x256_S4x256_d0 : Shape.Concatenates [S2x256, S2x256] S4x256 0
  broadcasts_S1x128_S4x128 : S1x128.Broadcasts S4x128
  broadcasts_S1x256_S4x256 : S1x256.Broadcasts S4x256
  slices_S4x256_o0_0_S2x256 : S4x256.Slices ![0, 0] S2x256
  slices_S4x256_o2_0_S2x256 : S4x256.Slices ![2, 0] S2x256
  shapeCasts_S2x256_S2x256x1 : S2x256.ShapeCasts S2x256x1
  broadcasts_S2x256x1_S2x256x1024 : S2x256x1.Broadcasts S2x256x1024
  shapeCasts_S32x256x4096_S32x256x64x64 : S32x256x4096.ShapeCasts S32x256x64x64
  dot_S4x256_S256x128_S4x128_1_0_0_1_n_n_wf : DotDims.WF S4x256 S256x128 S4x128 [1] [0] [0] [1] [] []
  dot_S4x128_S128x256_S4x256_1_0_0_1_n_n_wf : DotDims.WF S4x128 S128x256 S4x256 [1] [0] [0] [1] [] []
  hrank0 : 0 < grid0.rank
  k0_mult1_dvd : 1024 ∣ k0_mult1.toNat
  k0_off1_inb : ∀ (r : Fin 4), ∀ a, (k0_off1 (BitVec.ofNat 32 r.val)) a + S2x256x1024.size a ≤ S2x256x4096.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x4096.size a ≤ S32x256x4096.size a
  hwx0_0 : ∀ i : grid0.Coords, EltTy.bits .f32 = 32 ∨ (Rect.block (s := S32x256x4096) S2x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x4096.size a ≤ S32x256x4096.size a
  hwx0_5 : ∀ i : grid0.Coords, EltTy.bits .f32 = 32 ∨ (Rect.block (s := S32x256x4096) S2x256x4096.size (cc0_transform_5 i) (hinb0_5 i)).WholeWords (EltTy.packing .f32)

variable [Facts₀]

def dot_S4x256_S256x128_S4x128_1_0_0_1_n_n : DotDims S4x256 S256x128 S4x128 where
  lhsContracting := [1]
  rhsContracting := [0]
  lhsNonContracting := [0]
  rhsNonContracting := [1]
  lhsBatch := []
  rhsBatch := []
  wf := dot_S4x256_S256x128_S4x128_1_0_0_1_n_n_wf
def dot_S4x128_S128x256_S4x256_1_0_0_1_n_n : DotDims S4x128 S128x256 S4x256 where
  lhsContracting := [1]
  rhsContracting := [0]
  lhsNonContracting := [0]
  rhsNonContracting := [1]
  lhsBatch := []
  rhsBatch := []
  wf := dot_S4x128_S128x256_S4x256_1_0_0_1_n_n_wf

abbrev win0_0 : Pipeline.Window sig grid0 :=
  Pipeline.Window.ofSpec (Memref.whole main_v0) S2x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S128x256 : Shape := ⟨2, ![128, 256]⟩
abbrev S128 : Shape := ⟨1, ![128]⟩
abbrev S256x128 : Shape := ⟨2, ![256, 128]⟩
abbrev S256 : Shape := ⟨1, ![256]⟩
abbrev S_ : Shape := ⟨0, ![]⟩
abbrev S32x256 : Shape := ⟨2, ![32, 256]⟩
abbrev S32x128 : Shape := ⟨2, ![32, 128]⟩
abbrev S1x128 : Shape := ⟨2, ![1, 128]⟩
abbrev S1x256 : Shape := ⟨2, ![1, 256]⟩
abbrev S32x256x1x1 : Shape := ⟨4, ![32, 256, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S128x256, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S_, .f32⟩
  | .hbm, ⟨10, _⟩ => ⟨S32x256, .f32⟩
  | .hbm, ⟨11, _⟩ => ⟨S32x256, .f32⟩
  | .hbm, ⟨12, _⟩ => ⟨S256x128, .f32⟩
  | .hbm, ⟨13, _⟩ => ⟨S32x128, .f32⟩
  | .hbm, ⟨14, _⟩ => ⟨S1x128, .f32⟩
  | .hbm, ⟨15, _⟩ => ⟨S32x128, .f32⟩
  | .hbm, ⟨16, _⟩ => ⟨S32x128, .f32⟩
  | .hbm, ⟨17, _⟩ => ⟨S_, .f32⟩
  | .hbm, ⟨18, _⟩ => ⟨S32x128, .f32⟩
  | .hbm, ⟨19, _⟩ => ⟨S32x128, .f32⟩
  | .hbm, ⟨20, _⟩ => ⟨S128x256, .f32⟩
  | .hbm, ⟨21, _⟩ => ⟨S32x256, .f32⟩
  | .hbm, ⟨22, _⟩ => ⟨S1x256, .f32⟩
  | .hbm, ⟨23, _⟩ => ⟨S32x256, .f32⟩
  | .hbm, ⟨24, _⟩ => ⟨S32x256, .f32⟩
  | .hbm, ⟨25, _⟩ => ⟨S256x128, .f32⟩
  | .hbm, ⟨26, _⟩ => ⟨S32x128, .f32⟩
  | .hbm, ⟨27, _⟩ => ⟨S1x128, .f32⟩
  | .hbm, ⟨28, _⟩ => ⟨S32x128, .f32⟩
  | .hbm, ⟨29, _⟩ => ⟨S32x128, .f32⟩
  | .hbm, ⟨30, _⟩ => ⟨S_, .f32⟩
  | .hbm, ⟨31, _⟩ => ⟨S32x128, .f32⟩
  | .hbm, ⟨32, _⟩ => ⟨S32x128, .f32⟩
  | .hbm, ⟨33, _⟩ => ⟨S128x256, .f32⟩
  | .hbm, ⟨34, _⟩ => ⟨S32x256, .f32⟩
  | .hbm, ⟨35, _⟩ => ⟨S1x256, .f32⟩
  | .hbm, ⟨36, _⟩ => ⟨S32x256, .f32⟩
  | .hbm, ⟨37, _⟩ => ⟨S32x256, .f32⟩
  | .hbm, ⟨38, _⟩ => ⟨S32x256, .f32⟩
  | .hbm, ⟨39, _⟩ => ⟨S32x256, .f32⟩
  | .hbm, ⟨40, _⟩ => ⟨S32x256, .f32⟩
  | .hbm, ⟨41, _⟩ => ⟨S_, .f32⟩
  | .hbm, ⟨42, _⟩ => ⟨S32x256, .f32⟩
  | .hbm, ⟨43, _⟩ => ⟨S32x256, .f32⟩
  | .hbm, ⟨44, _⟩ => ⟨S_, .f32⟩
  | .hbm, ⟨45, _⟩ => ⟨S32x256, .f32⟩
  | .hbm, ⟨46, _⟩ => ⟨S32x256, .f32⟩
  | .hbm, ⟨47, _⟩ => ⟨S32x256x1x1, .f32⟩
  | .hbm, ⟨48, _⟩ => ⟨S32x256x64x64, .f32⟩
  | .hbm, ⟨49, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_cst : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  transposes_S128x256_S256x128_1_0 : S128x256.Transposes [1, 0] S256x128
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  transposes_S256x128_S128x256_1_0 : S256x128.Transposes [1, 0] S128x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256_S256x128_S32x128_1_0_0_1_n_n_wf : DotDims.WF S32x256 S256x128 S32x128 [1] [0] [0] [1] [] []
  dot_S32x128_S128x256_S32x256_1_0_0_1_n_n_wf : DotDims.WF S32x128 S128x256 S32x256 [1] [0] [0] [1] [] []

variable [Facts₀]

def dot_S32x256_S256x128_S32x128_1_0_0_1_n_n : DotDims S32x256 S256x128 S32x128 where
  lhsContracting := [1]
  rhsContracting := [0]
  lhsNonContracting := [0]
  rhsNonContracting := [1]
  lhsBatch := []
  rhsBatch := []
  wf := dot_S32x256_S256x128_S32x128_1_0_0_1_n_n_wf
def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf

class Facts : Prop extends Facts₀ where

variable [Facts]
-- ==== Proof.Pool.lean ====
/-
  Regrouping a maximum and a sum over 4096 positions.

  A row of 4096 spatial positions is visited by the kernel in four chunks of 1024 consecutive positions; the
  running maximum starts at -∞ and the running sum at 0.  On the extended reals `max` and `+` are commutative and
  associative with those units, so the chunked results are the maximum and the sum over all 4096 positions.  No
  finiteness is needed.
-/
import Idealize.ShloMosaic.PureOps.Ideal

noncomputable section

open scoped BigOperators

namespace Cert.Pool

/-- Position `l` of chunk `q`: `1024 q + l`. -/
def ch (q : Fin 4) (l : Fin 1024) : Fin 4096 := ⟨1024 * q.val + l.val, by have := q.isLt; have := l.isLt; omega⟩

/-- Chunk and offset are the quotient and remainder of the position by 1024. -/
def chunkEquiv : Fin 4 × Fin 1024 ≃ Fin 4096 where
  toFun p := ch p.1 p.2
  invFun s := (⟨s.val / 1024, by have := s.isLt; omega⟩, ⟨s.val % 1024, Nat.mod_lt _ (by norm_num)⟩)
  left_inv p := by
    obtain ⟨q, l⟩ := p
    have := q.isLt; have := l.isLt
    refine Prod.ext (Fin.ext ?_) (Fin.ext ?_)
    · show (1024 * q.val + l.val) / 1024 = q.val; omega
    · show (1024 * q.val + l.val) % 1024 = l.val; omega
  right_inv s := by
    apply Fin.ext
    show 1024 * (s.val / 1024) + s.val % 1024 = s.val
    omega

/-- A fold of `max` from -∞ is the supremum. -/
theorem fold_max_eq_sup {ι : Type*} (s : Finset ι) (f : ι → EReal) : s.fold max ⊥ f = s.sup f := by
  classical
  induction s using Finset.induction_on with
  | empty => simp
  | insert a s ha ih => rw [Finset.fold_insert ha, Finset.sup_insert, ih]

/-- The running maximum over the four chunks, started at -∞, is the maximum over all positions. -/
theorem max_chunks (f : Fin 4096 → EReal) :
    max (max (max (max ⊥ (Finset.univ.sup fun l => f (ch 0 l))) (Finset.univ.sup fun l => f (ch 1 l)))
      (Finset.univ.sup fun l => f (ch 2 l))) (Finset.univ.sup fun l => f (ch 3 l)) = Finset.univ.sup f := by
  apply le_antisymm
  · refine max_le (max_le (max_le (max_le bot_le ?_) ?_) ?_) ?_ <;>
      exact Finset.sup_le fun l _ => Finset.le_sup (f := f) (Finset.mem_univ _)
  · refine Finset.sup_le fun s _ => ?_
    obtain ⟨⟨q, l⟩, rfl⟩ := chunkEquiv.surjective s
    show f (ch q l) ≤ _
    fin_cases q
    · exact le_max_of_le_left (le_max_of_le_left (le_max_of_le_left (le_max_of_le_right
        (Finset.le_sup (f := fun l => f (ch 0 l)) (Finset.mem_univ l)))))
    · exact le_max_of_le_left (le_max_of_le_left (le_max_of_le_right
        (Finset.le_sup (f := fun l => f (ch 1 l)) (Finset.mem_univ l))))
    · exact le_max_of_le_left (le_max_of_le_right
        (Finset.le_sup (f := fun l => f (ch 2 l)) (Finset.mem_univ l)))
    · exact le_max_of_le_right (Finset.le_sup (f := fun l => f (ch 3 l)) (Finset.mem_univ l))

/-- The running sum over the four chunks, started at 0, is the sum over all positions. -/
theorem sum_chunks {M : Type*} [AddCommMonoid M] (f : Fin 4096 → M) :
    (((0 + ∑ l, f (ch 0 l)) + ∑ l, f (ch 1 l)) + ∑ l, f (ch 2 l)) + ∑ l, f (ch 3 l) = ∑ s, f s := by
  rw [← Equiv.sum_comp chunkEquiv f, Fintype.sum_prod_type, Fin.sum_univ_four, zero_add]
  rfl

end Cert.Pool

end
-- ==== Proof.Spec.lean ====
/-
  The function both programs compute, on the extended reals.

  For a batch row `b` and a channel `c`, the spatial positions of `x[b, c, ·]` are pooled twice: their maximum and
  their mean (the sum times 1/4096).  Each pooled row of 256 channels goes through the same two-layer perceptron
  (256 → 128, +bias, max with 0, 128 → 256, +bias); the two results are added and passed through the logistic
  function, giving one gate per (b, c); the result is `gate b c * x[b, c, ·]`.

  The pooled row is a function `f j s` of the channel `j` and a position `s : Fin 4096`; the two programs differ only
  in how they index it (three axes with the positions merged, or four axes with `s = 64 h + w`).
-/
import Idealize.ShloMosaic.PureOps.Ideal
import Idealize.ShloMosaic.Lib.ValueIdx

noncomputable section

open scoped BigOperators

namespace Cert.Spec

open Idealize.ShloMosaic Idealize.ShloMosaic.ValueIdx

/-- The maximum of a row of positions. -/
def rowMax (f : Fin 4096 → EReal) : EReal := Finset.univ.sup f

/-- The mean of a row of positions: the sum times 1/4096. -/
def rowMean (f : Fin 4096 → EReal) : EReal := (∑ s, f s) * ((1 / 4096 : ℝ) : EReal)

/-- Hidden unit `k` of the perceptron on the pooled row `v`: `max (∑ⱼ v j · W1 k j + B1 k) 0`. -/
def hidden (v : Fin 256 → EReal) (W1 : Fin 128 → Fin 256 → EReal) (B1 : Fin 128 → EReal) (k : Fin 128) : EReal :=
  max ((∑ j, v j * W1 k j) + B1 k) 0

/-- Output `c` of the perceptron: `∑ₖ hidden k · W2 c k + B2 c`. -/
def mlp (v : Fin 256 → EReal) (W1 : Fin 128 → Fin 256 → EReal) (B1 : Fin 128 → EReal)
    (W2 : Fin 256 → Fin 128 → EReal) (B2 : Fin 256 → EReal) (c : Fin 256) : EReal :=
  (∑ k, hidden v W1 B1 k * W2 c k) + B2 c

/-- The gate of channel `c` from the rows `f j ·` of all channels `j`. -/
def gate (f : Fin 256 → Fin 4096 → EReal) (W1 : Fin 128 → Fin 256 → EReal) (B1 : Fin 128 → EReal)
    (W2 : Fin 256 → Fin 128 → EReal) (B2 : Fin 256 → EReal) (c : Fin 256) : EReal :=
  Ideal.logistic (mlp (fun j => rowMax (f j)) W1 B1 W2 B2 c + mlp (fun j => rowMean (f j)) W1 B1 W2 B2 c)

/-- The row index `h` of position `s = 64 h + w`. -/
def sdiv (s : Fin 4096) : Fin 64 := ⟨s.val / 64, by have := s.isLt; omega⟩
/-- The column index `w` of position `s = 64 h + w`. -/
def smod (s : Fin 4096) : Fin 64 := ⟨s.val % 64, Nat.mod_lt _ (by norm_num)⟩

/-- The result over three axes [B, 256, 4096], for any number of batch rows `B`. -/
def G3 {B : Nat} (X : (⟨3, ![B, 256, 4096]⟩ : Shape).Idx → EReal) (W1 : Fin 128 → Fin 256 → EReal) (B1 : Fin 128 → EReal)
    (W2 : Fin 256 → Fin 128 → EReal) (B2 : Fin 256 → EReal) : (⟨3, ![B, 256, 4096]⟩ : Shape).Idx → EReal :=
  fun i => gate (fun j s => X (ix3 (i 0) j s)) W1 B1 W2 B2 (i 1) * X i

/-- The result over four axes [32, 256, 64, 64]. -/
def G4 (x : (⟨4, ![32, 256, 64, 64]⟩ : Shape).Idx → EReal) (W1 : Fin 128 → Fin 256 → EReal) (B1 : Fin 128 → EReal)
    (W2 : Fin 256 → Fin 128 → EReal) (B2 : Fin 256 → EReal) : (⟨4, ![32, 256, 64, 64]⟩ : Shape).Idx → EReal :=
  fun i => gate (fun j s => x (ix4 (i 0) j (sdiv s) (smod s))) W1 B1 W2 B2 (i 1) * x i

end Cert.Spec

end
-- ==== Proof.Consts.lean ====
/-
  The float words the two programs spell, as the extended reals they denote.

  The kernel scales a row's sum by the word of 2⁻¹², the reference divides it by the word of 4096 (the number of
  spatial positions, 64 · 64); the running maximum starts from the word of -∞; the reference's sigmoid is spelled
  with the word of 1. Each word is evaluated here, once.
-/
import Idealize.ShloMosaic.PureOps.Ideal

noncomputable section

namespace Cert.Consts

open Idealize.ShloMosaic

/-- The word 0x45800000 (sign 0, exponent 139 = 127 + 12, mantissa 0) denotes 4096. -/
theorem ofBits_4096 : Ideal.ofBits .f32 0x45800000#32 = ((4096 : ℝ) : EReal) := by
  simp [Ideal.ofBits, Ideal.ieee, -EReal.coe_mul]; norm_num

/-- The word 0x39800000 (sign 0, exponent 115 = 127 - 12, mantissa 0) denotes 1/4096. -/
theorem ofBits_inv4096 : Ideal.ofBits .f32 0x39800000#32 = ((1 / 4096 : ℝ) : EReal) := by
  simp [Ideal.ofBits, Ideal.ieee, -EReal.coe_mul]; norm_num

/-- The word 0x3F800000 denotes 1. -/
theorem ofBits_one : Ideal.ofBits .f32 0x3F800000#32 = 1 := by
  simp [Ideal.ofBits, Ideal.ieee, -EReal.coe_mul]; norm_num

/-- The word 0xFF800000 (sign 1, exponent all ones, mantissa 0) denotes -∞. -/
theorem ofBits_neg_inf : Ideal.ofBits .f32 0xFF800000#32 = (⊥ : EReal) := by
  simp [Ideal.ofBits, Ideal.ieee]

end Cert.Consts

end
-- ==== Proof.KPool.lean ====
/-
  The kernel's pooling, read at an index.

  The body loads its [2, 256, 4096] input block in four chunks of 1024 positions.  Of each chunk it takes the
  maximum and the sum along the positions; the running maximum starts from a vector of -∞ and the running sum
  from a vector of zeros.  At row `r` and channel `j` the four-chunk maximum is the maximum of the block's row
  `(r, j, ·)` over all 4096 positions, and the four-chunk sum is the sum over them (`Pool`): `max` and `+`
  regroup freely on the extended reals.
-/
import proofs.«112647_j73976516706321_2_alg».proof.Proof.Gen.KernelIdeal.Skeleton
import proofs.«112647_j73976516706321_2_alg».proof.Proof.Pool
import proofs.«112647_j73976516706321_2_alg».proof.Proof.Spec
import proofs.«112647_j73976516706321_2_alg».proof.Proof.Consts
import Idealize.ShloMosaic.PureOps.Ideal.Laws
import Idealize.ShloMosaic.Lib.ValueIdx
import Idealize.ShloMosaic.Lib.Pipeline.Value

noncomputable section

open scoped BigOperators

namespace Cert.KernelIdeal.KPool

open Cert.KernelIdeal Cert.KernelIdeal.Gen Idealize.ShloMosaic Idealize.ShloMosaic.ValueIdx Cert.Pool

/-- Over `(r, j)`, the index of [2, 256, 1024] whose last coordinate is `k` is `(r, j, k)`. -/
theorem lift_last (h : S2x256x1024.Reduces [2] S2x256) (r : Fin 2) (j : Fin 256) (k : Fin (S2x256x1024.size 2)) :
    h.lift (ix2 r j) k = ix3 r j (⟨k.val, k.isLt⟩ : Fin 1024) := by
  funext ax; apply Fin.ext
  fin_cases ax <;> rfl

/-- One chunk's maximum along the positions, from -∞. -/
theorem chunk_max (v : FVec Ideal S2x256x1024 .f32) (h : S2x256x1024.Reduces [2] S2x256)
    (hacc : (0xFF800000#32 : BitVec 32) = 0xFF800000#32) (r : Fin 2) (j : Fin 256) :
    multiReduction .maximumf [2] S2x256 v 0xFF800000#32 h (.inl rfl) hacc (ix2 r j)
      = Finset.univ.sup fun l : Fin 1024 => v (ix3 r j l) := by
  refine (Ideal.multiReduction_maximumf_single v 0xFF800000#32 h (.inl rfl) hacc (ix2 r j)).trans ?_
  rw [show FloatOps.ofBits (F := Ideal) .f32 0xFF800000#32 = (⊥ : EReal) from Cert.Consts.ofBits_neg_inf, fold_max_eq_sup]
  refine Finset.sup_congr rfl fun k _ => ?_
  show v (h.lift (ix2 r j) k) = _
  rw [lift_last]; rfl

/-- One chunk's sum along the positions. -/
theorem chunk_sum (v : FVec Ideal S2x256x1024 .f32) (h : S2x256x1024.Reduces [2] S2x256)
    (hacc : (0x00000000#32 : BitVec 32) = 0x00000000#32) (r : Fin 2) (j : Fin 256) :
    multiReduction .add [2] S2x256 v 0x00000000#32 h (.inl rfl) hacc (ix2 r j)
      = ∑ l : Fin 1024, v (ix3 r j l) := by
  refine (Ideal.multiReduction_add_single v 0x00000000#32 h (.inl rfl) hacc (ix2 r j)).trans ?_
  refine Finset.sum_congr rfl fun k _ => ?_
  rw [lift_last]; rfl

/-- The running maximum after three chunks. -/
theorem pay7_apply (c0 c1 c2 : Vec Ideal S2x256x1024 .f32) (r : Fin 2) (j : Fin 256) :
    k0_pay7 c0 c1 c2 (ix2 r j)
      = max (max (max ⊥ (Finset.univ.sup fun l : Fin 1024 => c0 (ix3 r j l)))
          (Finset.univ.sup fun l : Fin 1024 => c1 (ix3 r j l))) (Finset.univ.sup fun l : Fin 1024 => c2 (ix3 r j l)) := by
  unfold k0_pay7 k0_pay4 k0_pay5 k0_pay6
  simp only [maximumf_apply, broadcast_apply, shapeCast_self]
  exact congrArg₂ max (congrArg₂ max (congrArg₂ max Cert.Consts.ofBits_neg_inf (chunk_max c0 _ _ r j))
    (chunk_max c1 _ _ r j)) (chunk_max c2 _ _ r j)

/-- The running sum after three chunks. -/
theorem pay8_apply (c0 c1 c2 : Vec Ideal S2x256x1024 .f32) (r : Fin 2) (j : Fin 256) :
    k0_pay8 c0 c1 c2 (ix2 r j)
      = ((0 + ∑ l : Fin 1024, c0 (ix3 r j l)) + ∑ l : Fin 1024, c1 (ix3 r j l)) + ∑ l : Fin 1024, c2 (ix3 r j l) := by
  unfold k0_pay8 k0_pay4 k0_pay5 k0_pay6
  simp only [addf_apply, broadcast_apply, shapeCast_self]
  exact congrArg₂ (· + ·) (congrArg₂ (· + ·) (congrArg₂ (· + ·) Ideal.ofBits_zero_f32 (chunk_sum c0 _ _ r j))
    (chunk_sum c1 _ _ r j)) (chunk_sum c2 _ _ r j)

/-- With the fourth chunk: the maximum over all 4096 positions of the row, when chunk `q` holds the row's positions
    `1024 q + l`. -/
theorem pooled_max (X : (⟨3, ![2, 256, 4096]⟩ : Shape).Idx → EReal) (c0 c1 c2 c3 : Vec Ideal S2x256x1024 .f32)
    (h0 : ∀ r j l, c0 (ix3 r j l) = X (ix3 r j (ch 0 l))) (h1 : ∀ r j l, c1 (ix3 r j l) = X (ix3 r j (ch 1 l)))
    (h2 : ∀ r j l, c2 (ix3 r j l) = X (ix3 r j (ch 2 l))) (h3 : ∀ r j l, c3 (ix3 r j l) = X (ix3 r j (ch 3 l)))
    (h : S2x256x1024.Reduces [2] S2x256) (hacc : (0xFF800000#32 : BitVec 32) = 0xFF800000#32) (r : Fin 2) (j : Fin 256) :
    max (k0_pay7 c0 c1 c2 (ix2 r j)) (multiReduction .maximumf [2] S2x256 (k0_pay9 c3) 0xFF800000#32 h (.inl rfl) hacc (ix2 r j))
      = Cert.Spec.rowMax fun s => X (ix3 r j s) := by
  rw [pay7_apply, chunk_max]
  unfold k0_pay9
  simp only [shapeCast_self, h0, h1, h2, h3]
  exact max_chunks fun s => X (ix3 r j s)

/-- And the sum over all 4096 positions of the row. -/
theorem pooled_sum (X : (⟨3, ![2, 256, 4096]⟩ : Shape).Idx → EReal) (c0 c1 c2 c3 : Vec Ideal S2x256x1024 .f32)
    (h0 : ∀ r j l, c0 (ix3 r j l) = X (ix3 r j (ch 0 l))) (h1 : ∀ r j l, c1 (ix3 r j l) = X (ix3 r j (ch 1 l)))
    (h2 : ∀ r j l, c2 (ix3 r j l) = X (ix3 r j (ch 2 l))) (h3 : ∀ r j l, c3 (ix3 r j l) = X (ix3 r j (ch 3 l)))
    (h : S2x256x1024.Reduces [2] S2x256) (hacc : (0x00000000#32 : BitVec 32) = 0x00000000#32) (r : Fin 2) (j : Fin 256) :
    k0_pay8 c0 c1 c2 (ix2 r j) + multiReduction .add [2] S2x256 (k0_pay9 c3) 0x00000000#32 h (.inl rfl) hacc (ix2 r j)
      = ∑ s, X (ix3 r j s) := by
  rw [pay8_apply, chunk_sum]
  unfold k0_pay9
  simp only [shapeCast_self, h0, h1, h2, h3]
  exact sum_chunks fun s => X (ix3 r j s)

end Cert.KernelIdeal.KPool

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.KGate.lean ====
/-
  The kernel's gate, read at an index.

  The body stacks the two pooled [2, 256] matrices (maxima on top, means below) into one [4, 256] matrix and runs the
  perceptron once on the four rows.  A row of a matrix product depends only on the same row of the left operand,
  and the bias rows and the maximum with 0 act row by row, so rows `r` and `r + 2` of the stacked result are the
  perceptron of the maxima's row `r` and of the means' row `r`; the body adds the two and applies the logistic
  function.  The mean is the sum times the word of 2⁻¹², which denotes 1/4096.  A change of float format is the
  identity on the extended reals.
-/
import proofs.«112647_j73976516706321_2_alg».proof.Proof.KPool
import proofs.«112647_j73976516706321_2_alg».proof.Proof.LibDotRows
import Idealize.ShloMosaic.Lib.ValueLayout

noncomputable section

open scoped BigOperators

namespace Cert.KernelIdeal.KGate

open Cert.KernelIdeal Cert.KernelIdeal.Gen Idealize.ShloMosaic Idealize.ShloMosaic.ValueIdx Cert.Pool

/-- Row `r` of the upper half of the stacked matrix. -/
def lo (r : Fin 2) : Fin 4 := ⟨r.val, by have := r.isLt; omega⟩
/-- Row `r` of the lower half of the stacked matrix: `r + 2`. -/
def hi (r : Fin 2) : Fin 4 := ⟨r.val + 2, by have := r.isLt; omega⟩

/-- The stacked matrix's upper rows are the first piece's. -/
theorem cat_lo (A B : FVec Ideal S2x256 .f32) (h : Shape.Concatenates [S2x256, S2x256] S4x256 0) (r : Fin 2) (j : Fin 256) :
    concatenate S4x256 0 [⟨S2x256, A⟩, ⟨S2x256, B⟩] h (ix2 (lo r) j) = A (ix2 r j) :=
  concatenate_pair_apply_left 0 A B h (ix2 (lo r) j) rfl (ix2 r j)
    (fun b => by match b with | ⟨0, _⟩ => rfl | ⟨1, _⟩ => rfl)

/-- The stacked matrix's lower rows are the second piece's. -/
theorem cat_hi (A B : FVec Ideal S2x256 .f32) (h : Shape.Concatenates [S2x256, S2x256] S4x256 0) (r : Fin 2) (j : Fin 256) :
    concatenate S4x256 0 [⟨S2x256, A⟩, ⟨S2x256, B⟩] h (ix2 (hi r) j) = B (ix2 r j) :=
  concatenate_pair_apply_right 0 A B h (ix2 (hi r) j) rfl rfl (ix2 r j)
    (fun b hb => by match b with | ⟨0, _⟩ => exact absurd rfl hb | ⟨1, _⟩ => rfl) rfl

/-- The slice at row offset 0 reads the upper rows. -/
theorem slice_lo (V : FVec Ideal S4x256 .f32) (h : S4x256.Slices ![0, 0] S2x256) (r : Fin 2) (c : Fin 256) :
    extractStridedSlice S2x256 ![0, 0] V h (ix2 r c) = V (ix2 (lo r) c) :=
  slice2_axis0_apply 0 V h r c (lo r) (by show r.val = 0 + r.val; omega)

/-- The slice at row offset 2 reads the lower rows. -/
theorem slice_hi (V : FVec Ideal S4x256 .f32) (h : S4x256.Slices ![2, 0] S2x256) (r : Fin 2) (c : Fin 256) :
    extractStridedSlice S2x256 ![2, 0] V h (ix2 r c) = V (ix2 (hi r) c) :=
  slice2_axis0_apply 2 V h r c (hi r) (by show r.val + 2 = 2 + r.val; omega)

/-- The first layer at `(q, k)`: `max (∑ⱼ V (q, j) · w (j, k) + b (0, k)) 0`. -/
theorem layer1_apply (V : FVec Ideal S4x256 .f32) (w : FVec Ideal S256x128 .bf16) (b : FVec Ideal S1x128 .f32)
    (hb : S1x128.Broadcasts S4x128) (q : Fin 4) (k : Fin 128) :
    maximumf (addf (matmul dot_S4x256_S256x128_S4x128_1_0_0_1_n_n none (truncf .bf16 V bitsLt_bf16_f32) w
        (constant S4x128 .f32 0x00000000#32)) (broadcastTo S4x128 b hb))
      (broadcast S4x128 (Scalar.ofBits .f32 0x00000000#32)) (ix2 q k)
      = Cert.Spec.hidden (fun j => V (ix2 q j)) (fun k j => w (ix2 j k)) (fun k => b (ix2 (0 : Fin 1) k)) k := by
  rw [maximumf_apply, addf_apply, broadcast_apply, broadcastTo_1b_ab_apply]
  have e := matmul_zero_rows dot_S4x256_S256x128_S4x128_1_0_0_1_n_n none rfl rfl (fun _ _ => rfl) (fun _ _ => rfl)
    (fun _ _ => rfl) (fun _ _ => rfl) (truncf .bf16 V bitsLt_bf16_f32) w q k
  unfold Cert.Spec.hidden
  exact congrArg₂ max (congrArg₂ (· + ·) e rfl) Ideal.ofBits_zero_f32

/-- The second layer at `(q, c)`: `∑ₖ H (q, k) · w (k, c) + b (0, c)`. -/
theorem layer2_apply (H : FVec Ideal S4x128 .f32) (w : FVec Ideal S128x256 .bf16) (b : FVec Ideal S1x256 .f32)
    (hb : S1x256.Broadcasts S4x256) (q : Fin 4) (c : Fin 256) :
    addf (matmul dot_S4x128_S128x256_S4x256_1_0_0_1_n_n none (truncf .bf16 H bitsLt_bf16_f32) w
        (constant S4x256 .f32 0x00000000#32)) (broadcastTo S4x256 b hb) (ix2 q c)
      = (∑ k : Fin 128, H (ix2 q k) * w (ix2 k c)) + b (ix2 (0 : Fin 1) c) := by
  rw [addf_apply, broadcastTo_1b_ab_apply]
  have e := matmul_zero_rows dot_S4x128_S128x256_S4x256_1_0_0_1_n_n none rfl rfl (fun _ _ => rfl) (fun _ _ => rfl)
    (fun _ _ => rfl) (fun _ _ => rfl) (truncf .bf16 H bitsLt_bf16_f32) w q c
  exact congrArg₂ (· + ·) e rfl

/-- Both layers on row `q` of a stacked matrix `V`: the perceptron of that row. -/
theorem mlp_row (V : FVec Ideal S4x256 .f32) (w1 : FVec Ideal S256x128 .bf16) (b1 : FVec Ideal S1x128 .f32)
    (w2 : FVec Ideal S128x256 .bf16) (b2 : FVec Ideal S1x256 .f32)
    (hb1 : S1x128.Broadcasts S4x128) (hb2 : S1x256.Broadcasts S4x256) (q : Fin 4) (c : Fin 256) :
    addf (matmul dot_S4x128_S128x256_S4x256_1_0_0_1_n_n none
        (truncf .bf16 (maximumf (addf (matmul dot_S4x256_S256x128_S4x128_1_0_0_1_n_n none (truncf .bf16 V bitsLt_bf16_f32) w1
          (constant S4x128 .f32 0x00000000#32)) (broadcastTo S4x128 b1 hb1))
          (broadcast S4x128 (Scalar.ofBits .f32 0x00000000#32))) bitsLt_bf16_f32) w2
        (constant S4x256 .f32 0x00000000#32)) (broadcastTo S4x256 b2 hb2) (ix2 q c)
      = Cert.Spec.mlp (fun j => V (ix2 q j)) (fun k j => w1 (ix2 j k)) (fun k => b1 (ix2 (0 : Fin 1) k))
          (fun c k => w2 (ix2 k c)) (fun c => b2 (ix2 (0 : Fin 1) c)) c := by
  rw [layer2_apply]
  unfold Cert.Spec.mlp
  refine congrArg₂ (· + ·) (Finset.sum_congr rfl fun k _ => ?_) rfl
  rw [layer1_apply]

/-- The gate payload at `(r, c)`, from the running maximum `a` and sum `s` after three chunks and the fourth chunk
    `v`: with `mx` the four-chunk maximum and `av` the four-chunk sum times 1/4096, it is the logistic function of
    the perceptron of `mx`'s row plus the perceptron of `av`'s row. -/
theorem pay10_apply (a s : FVec Ideal S2x256 .f32) (v : FVec Ideal S2x256x1024 .f32) (w1 : Vec Ideal S256x128 .bf16)
    (w2 : Vec Ideal S128x256 .bf16) (b1 : Vec Ideal S1x128 .f32) (b2 : Vec Ideal S1x256 .f32) (r : Fin 2) (c : Fin 256) :
    k0_pay10 a s v w1 w2 b1 b2 (ix2 r c)
      = Ideal.logistic
        (Cert.Spec.mlp (fun j => max (a (ix2 r j))
              (multiReduction .maximumf [2] S2x256 v 0xFF800000#32 reduces_S2x256x1024_S2x256 (.inl rfl) rfl (ix2 r j)))
            (fun k j => w1 (ix2 j k)) (fun k => b1 (ix2 (0 : Fin 1) k)) (fun c k => w2 (ix2 k c)) (fun c => b2 (ix2 (0 : Fin 1) c)) c
          + Cert.Spec.mlp (fun j => (s (ix2 r j)
                + multiReduction .add [2] S2x256 v 0x00000000#32 reduces_S2x256x1024_S2x256 (.inl rfl) rfl (ix2 r j))
                * ((1 / 4096 : ℝ) : EReal))
            (fun k j => w1 (ix2 j k)) (fun k => b1 (ix2 (0 : Fin 1) k)) (fun c k => w2 (ix2 k c)) (fun c => b2 (ix2 (0 : Fin 1) c)) c) := by
  unfold k0_pay10
  simp only [shapeCast_self]
  show FloatOps.logistic (addf _ _ (ix2 r c)) = _
  rw [addf_apply, slice_lo, slice_hi, mlp_row, mlp_row]
  simp only [cat_lo, cat_hi, maximumf_apply, mulf_apply, addf_apply, broadcast_apply]
  rw [show (Scalar.ofBits (F := Ideal) .f32 0x39800000#32 : EReal) = ((1 / 4096 : ℝ) : EReal) from Cert.Consts.ofBits_inv4096]
  rfl

end Cert.KernelIdeal.KGate

end
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.KBlock.lean ====
/-
  What the body leaves in the output block.

  The body reads the [2, 256, 4096] input block `x0` in four chunks of 1024 positions, computes one gate per
  (row, channel) from all four chunks and the perceptron's weights, and stores, chunk by chunk, the gate times the
  chunk.  The four stores tile the output block, and each stored piece is the restriction of ONE function of the
  block index, `(r, j, s) ↦ gate r j · x0 (r, j, s)`; so the block ends holding that function.
-/
import proofs.«112647_j73976516706321_2_alg».proof.Proof.Gen.KernelIdeal.Frame
import proofs.«112647_j73976516706321_2_alg».proof.Proof.KGate
import proofs.«112647_j73976516706321_2_alg».proof.Proof.LibLayout3
import Idealize.ShloMosaic.Lib.Tactic

noncomputable section

open scoped BigOperators

namespace Cert.KernelIdeal.KBlock

open Cert.KernelIdeal Cert.KernelIdeal.Gen Idealize.ShloMosaic Idealize.ShloMosaic.TcCoe Idealize.SL.Sem
open Idealize.ShloMosaic.ValueIdx Cert.Pool

/-- The block's function: the gate of the block's row and channel times the block's entry. -/
def blockFn (x0 : Vec Ideal S2x256x4096 .f32) (x1 : Vec Ideal S256x128 .bf16) (x2 : Vec Ideal S1x128 .f32)
    (x3 : Vec Ideal S128x256 .bf16) (x4 : Vec Ideal S1x256 .f32) : S2x256x4096.Idx → EReal :=
  fun y => Cert.Spec.gate (fun j s => x0 (ix3 (y 0) j s)) (fun k j => x1 (ix2 j k)) (fun k => x2 (ix2 (0 : Fin 1) k))
    (fun c k => x3 (ix2 k c)) (fun c => x4 (ix2 (0 : Fin 1) c)) (y 1) * x0 y

/-- Chunk `q` of the block, loaded through the rectangle at position offset `o = 1024 q`, holds at `(r, j, l)` the
    block's entry at position `1024 q + l`. -/
theorem chunk_apply (X : Vec Ideal S2x256x4096 .f32) (o : Nat) (q : Fin 4) (ho : o = 1024 * q.val)
    (inb : ∀ a, (![0, 0, o] : Fin 3 → Nat) a + (![2, 256, 1024] : Fin 3 → Nat) a ≤ S2x256x4096.size a)
    (r : Fin 2) (j : Fin 256) (l : Fin 1024) :
    View.ld X (Rect.unit (s := S2x256x4096) ![0, 0, o] ![2, 256, 1024] inb) (ix3 r j l) = X (ix3 r j (ch q l)) := by
  show X ((Rect.unit (s := S2x256x4096) ![0, 0, o] ![2, 256, 1024] inb).idx (ix3 r j l)) = _
  congr 1
  funext a
  apply Fin.ext
  match a with
  | ⟨0, _⟩ => show 0 + 1 * r.val = r.val; omega
  | ⟨1, _⟩ => show 0 + 1 * j.val = j.val; omega
  | ⟨2, _⟩ => show o + 1 * l.val = 1024 * q.val + l.val; omega

/-- The index of the block under local index `(r, j, l)` of the rectangle at position offset `1024 q`. -/
theorem emb_chunk (o : Nat) (q : Fin 4) (ho : o = 1024 * q.val)
    (inb : ∀ a, (![0, 0, o] : Fin 3 → Nat) a + (![2, 256, 1024] : Fin 3 → Nat) a ≤ S2x256x4096.size a)
    (r : Fin 2) (j : Fin 256) (l : Fin 1024) :
    (Rect.unit (s := S2x256x4096) ![0, 0, o] ![2, 256, 1024] inb).emb (ix3 r j l) = ix3 r j (ch q l) := by
  funext a
  apply Fin.ext
  rw [Rect.emb_apply]
  match a with
  | ⟨0, _⟩ => show 0 + 1 * r.val = r.val; omega
  | ⟨1, _⟩ => show 0 + 1 * j.val = j.val; omega
  | ⟨2, _⟩ => show o + 1 * l.val = 1024 * q.val + l.val; omega

/-- The gate the body computes from the four chunks of `x0` and the weights, at `(r, c)`. -/
theorem gate_apply (x0 : Vec Ideal S2x256x4096 .f32) (x1 : Vec Ideal S256x128 .bf16) (x2 : Vec Ideal S1x128 .f32)
    (x3 : Vec Ideal S128x256 .bf16) (x4 : Vec Ideal S1x256 .f32)
    (i0 : ∀ a, (![0, 0, 0] : Fin 3 → Nat) a + (![2, 256, 1024] : Fin 3 → Nat) a ≤ S2x256x4096.size a)
    (i1 : ∀ a, (![0, 0, 1024] : Fin 3 → Nat) a + (![2, 256, 1024] : Fin 3 → Nat) a ≤ S2x256x4096.size a)
    (i2 : ∀ a, (![0, 0, 2048] : Fin 3 → Nat) a + (![2, 256, 1024] : Fin 3 → Nat) a ≤ S2x256x4096.size a)
    (i3 : ∀ a, (![0, 0, 3072] : Fin 3 → Nat) a + (![2, 256, 1024] : Fin 3 → Nat) a ≤ S2x256x4096.size a)
    (r : Fin 2) (c : Fin 256) :
    k0_pay10
        (k0_pay7 (View.ld x0 (Rect.unit (s := S2x256x4096) ![0, 0, 0] ![2, 256, 1024] i0))
          (View.ld x0 (Rect.unit (s := S2x256x4096) ![0, 0, 1024] ![2, 256, 1024] i1))
          (View.ld x0 (Rect.unit (s := S2x256x4096) ![0, 0, 2048] ![2, 256, 1024] i2)))
        (k0_pay8 (View.ld x0 (Rect.unit (s := S2x256x4096) ![0, 0, 0] ![2, 256, 1024] i0))
          (View.ld x0 (Rect.unit (s := S2x256x4096) ![0, 0, 1024] ![2, 256, 1024] i1))
          (View.ld x0 (Rect.unit (s := S2x256x4096) ![0, 0, 2048] ![2, 256, 1024] i2)))
        (k0_pay9 (View.ld x0 (Rect.unit (s := S2x256x4096) ![0, 0, 3072] ![2, 256, 1024] i3))) x1 x3 x2 x4 (ix2 r c)
      = Cert.Spec.gate (fun j s => x0 (ix3 r j s)) (fun k j => x1 (ix2 j k)) (fun k => x2 (ix2 (0 : Fin 1) k))
          (fun c k => x3 (ix2 k c)) (fun c => x4 (ix2 (0 : Fin 1) c)) c := by
  rw [Cert.KernelIdeal.KGate.pay10_apply]
  unfold Cert.Spec.gate
  refine congrArg Ideal.logistic (congrArg₂ (· + ·)
    (congrArg (fun v => Cert.Spec.mlp v _ _ _ _ c) (funext fun j => ?_))
    (congrArg (fun v => Cert.Spec.mlp v _ _ _ _ c) (funext fun j => ?_)))
  · exact Cert.KernelIdeal.KPool.pooled_max x0 _ _ _ _ (chunk_apply x0 0 0 rfl i0) (chunk_apply x0 1024 1 rfl i1)
      (chunk_apply x0 2048 2 rfl i2) (chunk_apply x0 3072 3 rfl i3) _ _ r j
  · unfold Cert.Spec.rowMean
    exact congrArg (· * ((1 / 4096 : ℝ) : EReal))
      (Cert.KernelIdeal.KPool.pooled_sum x0 _ _ _ _ (chunk_apply x0 0 0 rfl i0) (chunk_apply x0 1024 1 rfl i1)
        (chunk_apply x0 2048 2 rfl i2) (chunk_apply x0 3072 3 rfl i3) _ _ r j)

/-- A store's payload, gate broadcast along the positions times the chunk, at `(r, j, l)`. -/
theorem gated_apply (g : FVec Ideal S2x256 .f32) (v : FVec Ideal S2x256x1024 .f32)
    (hc : S2x256.ShapeCasts S2x256x1) (hb : S2x256x1.Broadcasts S2x256x1024) (r : Fin 2) (j : Fin 256) (l : Fin 1024) :
    mulf (broadcastTo S2x256x1024 (shapeCast S2x256x1 g hc) hb) v (ix3 r j l) = g (ix2 r j) * v (ix3 r j l) := by
  rw [mulf_apply, broadcastTo_ab1_abc_apply, shapeCast_ab_ab1_apply]

theorem pay1_apply (g : FVec Ideal S2x256 .f32) (v : Vec Ideal S2x256x1024 .f32) (r : Fin 2) (j : Fin 256) (l : Fin 1024) :
    k0_pay1 g v (ix3 r j l) = g (ix2 r j) * v (ix3 r j l) := by
  unfold k0_pay1; simp only [shapeCast_self]; exact gated_apply g v _ _ r j l
theorem pay2_apply (g : FVec Ideal S2x256 .f32) (v : Vec Ideal S2x256x1024 .f32) (r : Fin 2) (j : Fin 256) (l : Fin 1024) :
    k0_pay2 g v (ix3 r j l) = g (ix2 r j) * v (ix3 r j l) := by
  unfold k0_pay2; simp only [shapeCast_self]; exact gated_apply g v _ _ r j l
theorem pay3_apply (g : FVec Ideal S2x256 .f32) (v : Vec Ideal S2x256x1024 .f32) (r : Fin 2) (j : Fin 256) (l : Fin 1024) :
    k0_pay3 g v (ix3 r j l) = g (ix2 r j) * v (ix3 r j l) := by
  unfold k0_pay3; simp only [shapeCast_self]; exact gated_apply g v _ _ r j l
theorem pay11_apply (a s : FVec Ideal S2x256 .f32) (u : FVec Ideal S2x256x1024 .f32) (w1 : Vec Ideal S256x128 .bf16)
    (w2 : Vec Ideal S128x256 .bf16) (b1 : Vec Ideal S1x128 .f32) (b2 : Vec Ideal S1x256 .f32)
    (v : Vec Ideal S2x256x1024 .f32) (r : Fin 2) (j : Fin 256) (l : Fin 1024) :
    k0_pay11 a s u w1 w2 b1 b2 v (ix3 r j l) = k0_pay10 a s u w1 w2 b1 b2 (ix2 r j) * v (ix3 r j l) := by
  unfold k0_pay11; simp only [shapeCast_self]; exact gated_apply _ v _ _ r j l

theorem hz2 : (![0, 0] : Fin 2 → Nat) = fun _ => 0 := funext fun a => by fin_cases a <;> rfl

/-- Each chunk's rectangle lies inside the block. -/
theorem inb0 : ∀ a : Fin 3, (![0, 0, 0] : Fin 3 → Nat) a + (![2, 256, 1024] : Fin 3 → Nat) a ≤ S2x256x4096.size a := by decide
theorem inb1 : ∀ a : Fin 3, (![0, 0, 1024] : Fin 3 → Nat) a + (![2, 256, 1024] : Fin 3 → Nat) a ≤ S2x256x4096.size a := by decide
theorem inb2 : ∀ a : Fin 3, (![0, 0, 2048] : Fin 3 → Nat) a + (![2, 256, 1024] : Fin 3 → Nat) a ≤ S2x256x4096.size a := by decide
theorem inb3 : ∀ a : Fin 3, (![0, 0, 3072] : Fin 3 → Nat) a + (![2, 256, 1024] : Fin 3 → Nat) a ≤ S2x256x4096.size a := by decide

/-- The output block after the body: the block's function of the input blocks. -/
theorem out_block (c : Dev nD) (i : grid0.Coords) (a1 : Memref sig .tc .vmem S2x256x4096 .f32) (h1 : a1.IsWhole)
    (a2 : Memref sig .tc .vmem S256x128 .bf16) (h2 : a2.IsWhole) (a3 : Memref sig .tc .vmem S1x128 .f32) (h3 : a3.IsWhole)
    (a4 : Memref sig .tc .vmem S128x256 .bf16) (h4 : a4.IsWhole) (a5 : Memref sig .tc .vmem S1x256 .f32) (h5 : a5.IsWhole)
    (a6 : Memref sig .tc .vmem S2x256x4096 .f32) (h6 : a6.IsWhole)
    (x0 : Vec Ideal S2x256x4096 .f32) (x1 : Vec Ideal S256x128 .bf16) (x2 : Vec Ideal S1x128 .f32)
    (x3 : Vec Ideal S128x256 .bf16) (x4 : Vec Ideal S1x256 .f32) :
    out0_A_5 (F := Ideal) c i a1 h1 a2 h2 a3 h3 a4 h4 a5 h5 a6 h6 x0 x1 x2 x3 x4 = blockFn x0 x1 x2 x3 x4 := by
  unfold out0_A_5
  rw [View.read_writes_eq_canon _ _ _ (cover0_A_5 c i a1 h1 a2 h2 a3 h3 a4 h4 a5 h5 a6 h6 x0 x1 x2 x3 x4)]
  funext y
  refine View.canon_apply_of_pieces (blockFn x0 x1 x2 x3 x4) _ ?_ y
    (cover0_A_5 c i a1 h1 a2 h2 a3 h3 a4 h4 a5 h5 a6 h6 x0 x1 x2 x3 x4 y)
  unfold kernelRun0_A
  dsimp only
  sl_unfold_words
  simp only [View.readAt_eq_ld, h1.read_unread, h2.read_unread, h3.read_unread, h4.read_unread, h5.read_unread,
    View.ld_unit_zero (S := S256x128) hz2, View.ld_unit_zero (S := S128x256) hz2, View.ld_unit_zero (S := S1x128) hz2,
    View.ld_unit_zero (S := S1x256) hz2]
  intro pc hpc
  rcases List.mem_cons.mp hpc with rfl | hpc
  · intro x
    obtain ⟨r, j, l, rfl⟩ : ∃ (r : Fin 2) (j : Fin 256) (l : Fin 1024), x = ix3 r j l := ⟨x 0, x 1, x 2, eq_ix3 x⟩
    refine (pay3_apply _ _ r j l).trans ?_
    refine (congrArg₂ (· * ·) (gate_apply x0 x1 x2 x3 x4 inb0 inb1 inb2 inb3 r j) (chunk_apply x0 3072 3 rfl inb3 r j l)).trans ?_
    exact (congrArg (blockFn x0 x1 x2 x3 x4) (emb_chunk 3072 3 rfl inb3 r j l)).symm
  rcases List.mem_cons.mp hpc with rfl | hpc
  · intro x
    obtain ⟨r, j, l, rfl⟩ : ∃ (r : Fin 2) (j : Fin 256) (l : Fin 1024), x = ix3 r j l := ⟨x 0, x 1, x 2, eq_ix3 x⟩
    refine (pay2_apply _ _ r j l).trans ?_
    refine (congrArg₂ (· * ·) (gate_apply x0 x1 x2 x3 x4 inb0 inb1 inb2 inb3 r j) (chunk_apply x0 2048 2 rfl inb2 r j l)).trans ?_
    exact (congrArg (blockFn x0 x1 x2 x3 x4) (emb_chunk 2048 2 rfl inb2 r j l)).symm
  rcases List.mem_cons.mp hpc with rfl | hpc
  · intro x
    obtain ⟨r, j, l, rfl⟩ : ∃ (r : Fin 2) (j : Fin 256) (l : Fin 1024), x = ix3 r j l := ⟨x 0, x 1, x 2, eq_ix3 x⟩
    refine (pay1_apply _ _ r j l).trans ?_
    refine (congrArg₂ (· * ·) (gate_apply x0 x1 x2 x3 x4 inb0 inb1 inb2 inb3 r j) (chunk_apply x0 1024 1 rfl inb1 r j l)).trans ?_
    exact (congrArg (blockFn x0 x1 x2 x3 x4) (emb_chunk 1024 1 rfl inb1 r j l)).symm
  rcases List.mem_cons.mp hpc with rfl | hpc
  · intro x
    obtain ⟨r, j, l, rfl⟩ : ∃ (r : Fin 2) (j : Fin 256) (l : Fin 1024), x = ix3 r j l := ⟨x 0, x 1, x 2, eq_ix3 x⟩
    refine (pay11_apply _ _ _ _ _ _ _ _ r j l).trans ?_
    refine (congrArg₂ (· * ·) (gate_apply x0 x1 x2 x3 x4 inb0 inb1 inb2 inb3 r j) (chunk_apply x0 0 0 rfl inb0 r j l)).trans ?_
    exact (congrArg (blockFn x0 x1 x2 x3 x4) (emb_chunk 0 0 rfl inb0 r j l)).symm
  nomatch hpc

end Cert.KernelIdeal.KBlock

end
-- ==== Proof.KArray.lean ====
/-
  From the blocks to the array.

  Point `t` of the 16-point grid works on batch rows `2t` and `2t + 1`: its input block is rows `2t, 2t + 1` of the
  [32, 256, 4096] array, the four weight windows are the whole weight arrays at every point, and it writes back
  rows `2t, 2t + 1` of the result.  The block the body leaves is the gate of the block's own rows times the block,
  and a gate depends only on its own batch row; so every written block is the restriction of ONE function of the
  array index, and the sixteen blocks tile the array (row `b` is written by point `b / 2`).
-/
import proofs.«112647_j73976516706321_2_alg».proof.Proof.KBlock
import Idealize.ShloMosaic.Lib.Pipeline.Value

noncomputable section

open scoped BigOperators

namespace Cert.KernelIdeal.KArray

open Cert.KernelIdeal Cert.KernelIdeal.Gen Idealize.ShloMosaic Idealize.ShloMosaic.TcCoe Idealize.SL.Sem
open Idealize.ShloMosaic.ValueIdx Cert.KernelIdeal.KBlock
open Idealize.ShloMosaic.Pipeline (Dat)

variable (m : (ℓ : Loc nD τ sig) → Buf (Elt Ideal) ℓ) (ρ : Dev nD → PrngReg)

/-- The region's result as one function of the arrays the region finds: the [32, 256, 4096] input, the transposed
    weights [256, 128] and [128, 256] and the bias rows [1, 128] and [1, 256]. -/
def arrFn (X : S32x256x4096.Idx → Elt Ideal .f32) (w1 : S256x128.Idx → Elt Ideal .bf16) (b1 : S1x128.Idx → Elt Ideal .f32)
    (w2 : S128x256.Idx → Elt Ideal .bf16) (b2 : S1x256.Idx → Elt Ideal .f32) : S32x256x4096.Idx → Elt Ideal .f32 :=
  Cert.Spec.G3 (B := 32) X (fun k j => w1 (ix2 j k)) (fun k => b1 (ix2 (0 : Fin 1) k)) (fun c k => w2 (ix2 k c))
    (fun c => b2 (ix2 (0 : Fin 1) c))

/-- A block whose rows are the array's rows `R r` and whose weight blocks are the weight arrays has, as its function,
    the array's function on those rows. -/
theorem block_eq (X : S32x256x4096.Idx → Elt Ideal .f32) (w1 : S256x128.Idx → Elt Ideal .bf16) (b1 : S1x128.Idx → Elt Ideal .f32)
    (w2 : S128x256.Idx → Elt Ideal .bf16) (b2 : S1x256.Idx → Elt Ideal .f32)
    (x0 : Vec Ideal S2x256x4096 .f32) (x1 : Vec Ideal S256x128 .bf16) (x2 : Vec Ideal S1x128 .f32)
    (x3 : Vec Ideal S128x256 .bf16) (x4 : Vec Ideal S1x256 .f32) (R : Fin 2 → Fin 32)
    (h0 : ∀ r j s, x0 (ix3 r j s) = X (ix3 (R r) j s)) (h1 : ∀ j k, x1 (ix2 j k) = w1 (ix2 j k))
    (h2 : ∀ u k, x2 (ix2 u k) = b1 (ix2 u k)) (h3 : ∀ k c, x3 (ix2 k c) = w2 (ix2 k c))
    (h4 : ∀ u c, x4 (ix2 u c) = b2 (ix2 u c)) (r : Fin 2) (j : Fin 256) (s : Fin 4096) :
    blockFn x0 x1 x2 x3 x4 (ix3 r j s) = arrFn X w1 b1 w2 b2 (ix3 (R r) j s) := by
  unfold blockFn arrFn Cert.Spec.G3
  show Cert.Spec.gate (fun j' s' => x0 (ix3 r j' s')) _ _ _ _ j * x0 (ix3 r j s)
    = Cert.Spec.gate (fun j' s' => X (ix3 (R r) j' s')) _ _ _ _ j * X (ix3 (R r) j s)
  simp only [h0, h1, h2, h3, h4]

/-- The printed index maps, decided over the grid: the input and result windows move with the point on the batch axis
    only; the four weight windows never move. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The batch row of the array under row `r` of point `t`'s block: `2t + r`. -/
def rowAt (t : Fin cfg0.N) (r : Fin 2) : Fin 32 :=
  ⟨2 * t.val + r.val, by have hN : cfg0.N = 16 := N_0; have := t.isLt; have := r.isLt; omega⟩

/-- Point `t`'s input block holds the array's rows `2t, 2t + 1`. -/
theorem blk0_apply (c : Dev nD) (t : Fin cfg0.N) (r : Fin 2) (j : Fin 256) (s : Fin 4096) :
    (iblk m c 0 t : Vec Ideal S2x256x4096 .f32) (ix3 r j s) = V m c main_v0 (ix3 (rowAt t r) j s) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 2 + 1 * r.val = 2 * t.val + r.val; rw [e0]; omega
  | ⟨1, _⟩ => show win0_0.index t (1 : Fin 3) * 256 + 1 * j.val = j.val; rw [e1]; omega
  | ⟨2, _⟩ => show win0_0.index t (2 : Fin 3) * 4096 + 1 * s.val = s.val; rw [e2]; omega

/-- The weight windows' blocks are the weight arrays. -/
theorem blk1_apply (c : Dev nD) (t : Fin cfg0.N) (j : Fin 256) (k : Fin 128) :
    (iblk m c 1 t : Vec Ideal S256x128 .bf16) (ix2 j k) = V m c main_v2 (ix2 j k) := by
  obtain ⟨-, -, -, -, -, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 256 + 1 * j.val = j.val; rw [e0]; omega
  | ⟨1, _⟩ => show win0_1.index t (1 : Fin 2) * 128 + 1 * k.val = k.val; rw [e1]; omega

theorem blk2_apply (c : Dev nD) (t : Fin cfg0.N) (u : Fin 1) (k : Fin 128) :
    (iblk m c 2 t : Vec Ideal S1x128 .f32) (ix2 u k) = V m c main_v5 (ix2 u k) := by
  obtain ⟨-, -, -, -, -, -, -, -, e0, e1, -⟩ := idx_facts t
  unfold iblk
  rw [View.read_apply]
  show V m c main_v5 _ = V m c main_v5 _
  congr 1
  funext a
  apply Fin.ext
  match a with
  | ⟨0, _⟩ => show win0_2.index t (0 : Fin 2) * 1 + 1 * u.val = u.val; rw [e0]; omega
  | ⟨1, _⟩ => show win0_2.index t (1 : Fin 2) * 128 + 1 * k.val = k.val; rw [e1]; omega

theorem blk3_apply (c : Dev nD) (t : Fin cfg0.N) (k : Fin 128) (j : Fin 256) :
    (iblk m c 3 t : Vec Ideal S128x256 .bf16) (ix2 k j) = V m c main_v4 (ix2 k j) := by
  obtain ⟨-, -, -, -, -, -, -, -, -, -, e0, e1, -⟩ := idx_facts t
  unfold iblk
  rw [View.read_apply]
  show V m c main_v4 _ = V m c main_v4 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * j.val = j.val; rw [e1]; omega

theorem blk4_apply (c : Dev nD) (t : Fin cfg0.N) (u : Fin 1) (j : Fin 256) :
    (iblk m c 4 t : Vec Ideal S1x256 .f32) (ix2 u j) = V m c main_v6 (ix2 u j) := by
  obtain ⟨-, -, -, -, -, -, -, -, -, -, -, -, e0, e1⟩ := idx_facts t
  unfold iblk
  rw [View.read_apply]
  show V m c main_v6 _ = V m c main_v6 _
  congr 1
  funext a
  apply Fin.ext
  match a with
  | ⟨0, _⟩ => show win0_4.index t (0 : Fin 2) * 1 + 1 * u.val = u.val; rw [e0]; omega
  | ⟨1, _⟩ => show win0_4.index t (1 : Fin 2) * 256 + 1 * j.val = j.val; rw [e1]; omega

/-- The index of the result array under `(r, j, s)` of point `t`'s block: `(2t + r, j, s)`. -/
theorem emb5 (t : Fin cfg0.N) (r : Fin 2) (j : Fin 256) (s : Fin 4096) :
    ((cfg0.win 5).blk t).view.emb (ix3 r j s) = (ix3 (rowAt t r) j s : S32x256x4096.Idx) := by
  obtain ⟨-, -, -, e0, e1, e2, -⟩ := idx_facts t
  funext a
  apply Fin.ext
  match a with
  | ⟨0, _⟩ => show win0_5.index t (0 : Fin 3) * 2 + 1 * r.val = 2 * t.val + r.val; rw [e0]; omega
  | ⟨1, _⟩ => show win0_5.index t (1 : Fin 3) * 256 + 1 * j.val = j.val; rw [e1]; omega
  | ⟨2, _⟩ => show win0_5.index t (2 : Fin 3) * 4096 + 1 * s.val = s.val; rw [e2]; omega

/-- What the body leaves in the result's staging buffer at point `t`: the block's function of the point's input blocks. -/
theorem outs_eq (c : Dev nD) (t : Fin cfg0.N) :
    outsAt0 (F := Ideal) m c t
      = blockFn (iblk m c 0 t) (iblk m c 1 t) (iblk m c 2 t) (iblk m c 3 t) (iblk m c 4 t) :=
  out_block c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)

/-- What point `t` writes back is block `t` of the array's function of the arrays the region finds. -/
theorem flushed_eq (c : Dev nD) (t : Fin cfg0.N) :
    (dats m 0 c).flushed 5 t = ((cfg0.win 5).blk t).view.read (Elt Ideal)
      (arrFn (V m c main_v0) (V m c main_v2) (V m c main_v5) (V m c main_v4) (V m c main_v6)) := by
  show (cfg0.win 5).cut (grid0.coords t) ((dats m 0 c).after 5 t) = _
  rw [after0_5, outs_eq]
  funext y
  obtain ⟨r, j, s, rfl⟩ : ∃ (r : Fin 2) (j : Fin 256) (s : Fin 4096), y = ix3 r j s := ⟨y 0, y 1, y 2, eq_ix3 y⟩
  rw [View.read_apply]
  show blockFn (iblk m c 0 t) (iblk m c 1 t) (iblk m c 2 t) (iblk m c 3 t) (iblk m c 4 t) (ix3 r j s)
    = arrFn (V m c main_v0) (V m c main_v2) (V m c main_v5) (V m c main_v4) (V m c main_v6)
      (((cfg0.win 5).blk t).view.emb (ix3 r j s))
  rw [emb5 t r j s]
  exact block_eq (V m c main_v0) (V m c main_v2) (V m c main_v5) (V m c main_v4) (V m c main_v6)
    (iblk m c 0 t) (iblk m c 1 t) (iblk m c 2 t) (iblk m c 3 t) (iblk m c 4 t) (rowAt t)
    (blk0_apply m c t) (blk1_apply m c t) (blk2_apply m c t) (blk3_apply m c t) (blk4_apply m c t) r j s

/-- An index of the result array is in point `t`'s block iff each coordinate is in the block's range on its axis. -/
theorem mem_blk5 (t : Fin cfg0.N) (i : S32x256x4096.Idx) :
    i ∈ ((cfg0.win 5).blk t).view.set ↔ ∀ a : Fin 3, win0_5.index t a * S2x256x4096.size a ≤ (i a).val
      ∧ (i a).val < win0_5.index t a * S2x256x4096.size a + S2x256x4096.size a := by
  show i ∈ ((View.whole main_v7).slice (win0_5.rect t)).set ↔ _
  rw [View.set_slice_whole, Rect.mem_set_unit]
  exact Iff.rfl

/-- The result array after the run: the array's function of the arrays the region finds. -/
theorem final5 (c : Dev nD) : (dats m 0 c).arrAt 5 cfg0.N
    = arrFn (V m c main_v0) (V m c main_v2) (V m c main_v5) (V m c main_v4) (V m c main_v6) :=
  (dats m 0 c).arrAt_eq_of_cover 5 _ (fun t _ => flushed_eq m c t) fun i => by
    have hN : cfg0.N = 16 := N_0
    have hi0 : (i 0).val < 32 := (i 0).isLt
    have hi1 : (i 1).val < 256 := (i 1).isLt
    have hi2 : (i 2).val < 4096 := (i 2).isLt
    refine ⟨⟨(i 0).val / 2, by omega⟩, flush0_5 _, ?_⟩
    rw [mem_blk5]
    obtain ⟨-, -, -, e0, e1, e2, -⟩ := idx_facts ⟨(i 0).val / 2, by omega⟩
    intro a
    match a with
    | ⟨0, _⟩ =>
      show win0_5.index _ (0 : Fin 3) * 2 ≤ (i 0).val ∧ (i 0).val < win0_5.index _ (0 : Fin 3) * 2 + 2
      rw [e0]; show (i 0).val / 2 * 2 ≤ (i 0).val ∧ (i 0).val < (i 0).val / 2 * 2 + 2; omega
    | ⟨1, _⟩ =>
      show win0_5.index _ (1 : Fin 3) * 256 ≤ (i 1).val ∧ (i 1).val < win0_5.index _ (1 : Fin 3) * 256 + 256
      rw [e1]; omega
    | ⟨2, _⟩ =>
      show win0_5.index _ (2 : Fin 3) * 4096 ≤ (i 2).val ∧ (i 2).val < win0_5.index _ (2 : Fin 3) * 4096 + 4096
      rw [e2]; omega

end Cert.KernelIdeal.KArray

end
-- ==== Proof.LibMergeTail.lean ====
/-
  Reshapes that merge or split the two TRAILING axes of a rank-4 array, read at an index written by coordinates, for
  any element type and any extents: [a, b, c, d] ↔ [a, b, m] with m = c · d, at (i, j, p, q) ↔ (i, j, p · d + q).
  Both arrays list their elements in row-major order, and the two indices have the same row-major position.
-/
import Idealize.ShloMosaic.Lib.Pipeline.Value
import Idealize.ShloMosaic.Lib.ValueIdx

namespace Idealize.ShloMosaic.ValueIdx

open Idealize.ShloMosaic

variable {α : Type}

/-- An [a, b, c, d] array cast to [a, b, m], m = c · d, reads, at (i, j, s) with s = p · d + q, the operand at
    (i, j, p, q). -/
theorem shapeCast_abcd_abm_apply {a b c d m : ℕ} (x : (⟨4, ![a, b, c, d]⟩ : Shape).Idx → α)
    (h : (⟨4, ![a, b, c, d]⟩ : Shape).ShapeCasts ⟨3, ![a, b, m]⟩) (hm : m = c * d)
    (i : Fin a) (j : Fin b) (p : Fin c) (q : Fin d) (s : Fin m) (hs : s.val = p.val * d + q.val) :
    shapeCast ⟨3, ![a, b, m]⟩ x h (ix3 i j s) = x (ix4 i j p q) :=
  shapeCast_apply x h _ _ (by
    rw [Shape.rowMajor_val_four, Shape.rowMajor_val_three]
    show ((i.val * b + j.val) * c + p.val) * d + q.val = (i.val * b + j.val) * m + s.val
    rw [hs, hm, Nat.add_mul, Nat.mul_assoc, Nat.add_assoc])

/-- An [a, b, m] array cast to [a, b, c, d], m = c · d, reads, at (i, j, p, q), the operand at (i, j, s) with
    s = p · d + q. -/
theorem shapeCast_abm_abcd_apply {a b c d m : ℕ} (x : (⟨3, ![a, b, m]⟩ : Shape).Idx → α)
    (h : (⟨3, ![a, b, m]⟩ : Shape).ShapeCasts ⟨4, ![a, b, c, d]⟩) (hm : m = c * d)
    (i : Fin a) (j : Fin b) (p : Fin c) (q : Fin d) (s : Fin m) (hs : s.val = p.val * d + q.val) :
    shapeCast ⟨4, ![a, b, c, d]⟩ x h (ix4 i j p q) = x (ix3 i j s) :=
  shapeCast_apply x h _ _ (by
    rw [Shape.rowMajor_val_four, Shape.rowMajor_val_three]
    show (i.val * b + j.val) * m + s.val = ((i.val * b + j.val) * c + p.val) * d + q.val
    symm
    rw [hs, hm, Nat.add_mul, Nat.mul_assoc, Nat.add_assoc])

end Idealize.ShloMosaic.ValueIdx
-- ==== Proof.KValue.lean ====
/-
  The kernel program's result as a function of its arguments.

  Before the region, the host merges the input's two spatial axes (position `s = 64 h + w`), transposes the two
  weight matrices (the change of their float format is the identity on the extended reals) and lays the two bias
  vectors out as rows.  After the region it splits the positions back into (h, w).  Read at an index, the arrays
  the region finds are the arguments re-indexed, so the region's result is the common function over the merged
  positions, and the final result is the common function over four axes.
-/
import proofs.«112647_j73976516706321_2_alg».proof.Proof.KArray
import proofs.«112647_j73976516706321_2_alg».proof.Proof.LibMergeTail
import Idealize.ShloMosaic.Lib.StableHlo.Run
import Idealize.ShloMosaic.Lib.ValueLayout

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Spec Cert.KernelIdeal.KArray
open Idealize.ShloMosaic.Pipeline (Dat)

variable (m : (ℓ : Loc nD τ sig) → Buf (Elt Ideal) ℓ) (ρ : Dev nD → PrngReg)

/-! ## The arrays the region finds -/

theorem V_v0 (c : Dev nD) : (V m c main_v0 : S32x256x4096.Idx → Elt Ideal .f32)
    = shapeCast S32x256x4096 (m ((c : Thread nD τ).loc main_arg0)) shapeCasts_S32x256x64x64_S32x256x4096 := by
  show StableHlo.after hostOps0 (fun b => m (c, b)) (Proc.devRef .tc main_v0) = _
  after_results
  rfl

theorem V_v2 (c : Dev nD) : (V m c main_v2 : S256x128.Idx → Elt Ideal .bf16)
    = (truncf .bf16 (transpose S256x128 [1, 0] (m ((c : Thread nD τ).loc main_arg1) : FVec Ideal S128x256 .f32)
        transposes_S128x256_S256x128_1_0) bitsLt_bf16_f32 : FVec Ideal S256x128 .bf16) := by
  show StableHlo.after hostOps0 (fun b => m (c, b)) (Proc.devRef .tc main_v2) = _
  after_results

theorem V_v4 (c : Dev nD) : (V m c main_v4 : S128x256.Idx → Elt Ideal .bf16)
    = (truncf .bf16 (transpose S128x256 [1, 0] (m ((c : Thread nD τ).loc main_arg3) : FVec Ideal S256x128 .f32)
        transposes_S256x128_S128x256_1_0) bitsLt_bf16_f32 : FVec Ideal S128x256 .bf16) := by
  show StableHlo.after hostOps0 (fun b => m (c, b)) (Proc.devRef .tc main_v4) = _
  after_results

theorem V_v5 (c : Dev nD) : (V m c main_v5 : S1x128.Idx → Elt Ideal .f32)
    = shapeCast S1x128 (m ((c : Thread nD τ).loc main_arg2)) shapeCasts_S128_S1x128 := by
  show StableHlo.after hostOps0 (fun b => m (c, b)) (Proc.devRef .tc main_v5) = _
  after_results
  rfl

theorem V_v6 (c : Dev nD) : (V m c main_v6 : S1x256.Idx → Elt Ideal .f32)
    = shapeCast S1x256 (m ((c : Thread nD τ).loc main_arg4)) shapeCasts_S256_S1x256 := by
  show StableHlo.after hostOps0 (fun b => m (c, b)) (Proc.devRef .tc main_v6) = _
  after_results
  rfl

/-- The position `64 h + w`. -/
def pos (h w : Fin 64) : Fin 4096 := ⟨h.val * 64 + w.val, by have := h.isLt; have := w.isLt; omega⟩

theorem sdiv_pos (h w : Fin 64) : sdiv (pos h w) = h := by
  apply Fin.ext; show (h.val * 64 + w.val) / 64 = h.val; have := w.isLt; omega
theorem smod_pos (h w : Fin 64) : smod (pos h w) = w := by
  apply Fin.ext; show (h.val * 64 + w.val) % 64 = w.val; have := w.isLt; omega

/-- The merged input at `(b, j, s)` is the input at `(b, j, s / 64, s % 64)`. -/
theorem X3_apply (c : Dev nD) (b : Fin 32) (j : Fin 256) (s : Fin 4096) :
    V m c main_v0 (ix3 b j s) = m ((c : Thread nD τ).loc main_arg0) (ix4 b j (sdiv s) (smod s)) := by
  rw [V_v0]
  exact shapeCast_abcd_abm_apply _ _ (by norm_num) b j (sdiv s) (smod s) s
    (by show s.val = s.val / 64 * 64 + s.val % 64; omega)

/-- The transposed first weight matrix at `(j, k)` is the weight at `(k, j)`. -/
theorem W1_apply (c : Dev nD) (j : Fin 256) (k : Fin 128) :
    V m c main_v2 (ix2 j k) = m ((c : Thread nD τ).loc main_arg1) (ix2 k j) := by
  rw [V_v2, truncf_apply]
  exact transpose_ix2_apply _ _ j k

/-- The transposed second weight matrix at `(k, c')` is the weight at `(c', k)`. -/
theorem W2_apply (c : Dev nD) (k : Fin 128) (c' : Fin 256) :
    V m c main_v4 (ix2 k c') = m ((c : Thread nD τ).loc main_arg3) (ix2 c' k) := by
  rw [V_v4, truncf_apply]
  exact transpose_ix2_apply _ _ k c'

/-- The bias rows read the biases. -/
theorem B1_apply (c : Dev nD) (u : Fin 1) (k : Fin 128) :
    V m c main_v5 (ix2 u k) = m ((c : Thread nD τ).loc main_arg2) (ix1 k) := by
  rw [V_v5]; exact shapeCast_a_1a_apply _ _ u k
theorem B2_apply (c : Dev nD) (u : Fin 1) (c' : Fin 256) :
    V m c main_v6 (ix2 u c') = m ((c : Thread nD τ).loc main_arg4) (ix1 c') := by
  rw [V_v6]; exact shapeCast_a_1a_apply _ _ u c'

/-! ## The result -/

/-- The program's result on core `c`: the common function of the five arguments. -/
def result (c : Dev nD) : S32x256x64x64.Idx → Elt Ideal .f32 :=
  G4 (m ((c : Thread nD τ).loc main_arg0)) (fun k j => m ((c : Thread nD τ).loc main_arg1) (ix2 k j))
    (fun k => m ((c : Thread nD τ).loc main_arg2) (ix1 k)) (fun c' k => m ((c : Thread nD τ).loc main_arg3) (ix2 c' k))
    (fun c' => m ((c : Thread nD τ).loc main_arg4) (ix1 c'))

/-- The region's result array at `(b, c', s)`, from the arguments. -/
theorem arr_apply (c : Dev nD) (b : Fin 32) (c' : Fin 256) (s : Fin 4096) :
    (dats m 0 c).arrAt 5 cfg0.N (ix3 b c' s) = result m c (ix4 b c' (sdiv s) (smod s)) := by
  rw [final5]
  unfold arrFn G3 result G4
  show gate (fun j s' => V m c main_v0 (ix3 b j s')) _ _ _ _ c' * V m c main_v0 (ix3 b c' s)
    = gate (fun j s' => m ((c : Thread nD τ).loc main_arg0) (ix4 b j (sdiv s') (smod s'))) _ _ _ _ c'
      * m ((c : Thread nD τ).loc main_arg0) (ix4 b c' (sdiv s) (smod s))
  have hX : (fun (j : Fin 256) (s' : Fin 4096) => V m c main_v0 (ix3 b j s'))
      = fun j s' => m ((c : Thread nD τ).loc main_arg0) (ix4 b j (sdiv s') (smod s')) :=
    funext fun j => funext fun s' => X3_apply m c b j s'
  have hW1 : (fun (k : Fin 128) (j : Fin 256) => V m c main_v2 (ix2 j k))
      = fun k j => m ((c : Thread nD τ).loc main_arg1) (ix2 k j) :=
    funext fun k => funext fun j => W1_apply m c j k
  have hB1 : (fun (k : Fin 128) => V m c main_v5 (ix2 (0 : Fin 1) k))
      = fun k => m ((c : Thread nD τ).loc main_arg2) (ix1 k) := funext fun k => B1_apply m c 0 k
  have hW2 : (fun (c₁ : Fin 256) (k : Fin 128) => V m c main_v4 (ix2 k c₁))
      = fun c₁ k => m ((c : Thread nD τ).loc main_arg3) (ix2 c₁ k) :=
    funext fun c₁ => funext fun k => W2_apply m c k c₁
  have hB2 : (fun (c₁ : Fin 256) => V m c main_v6 (ix2 (0 : Fin 1) c₁))
      = fun c₁ => m ((c : Thread nD τ).loc main_arg4) (ix1 c₁) := funext fun c₁ => B2_apply m c 0 c₁
  rw [hX, hW1, hB1, hW2, hB2, X3_apply]

/-- The host tail: the result array split back into (h, w). -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  funext i
  obtain ⟨b, c', h, w, rfl⟩ : ∃ (b : Fin 32) (c' : Fin 256) (h : Fin 64) (w : Fin 64), i = ix4 b c' h w :=
    ⟨i 0, i 1, i 2, i 3, eq_ix4 i⟩
  show shapeCast S32x256x64x64 (Pipeline.withArrays spec0 c (V0 m c) (fun w => (dats m 0 c).arrAt w cfg0.N)
    (Proc.devRef .tc main_v7)) shapeCasts_S32x256x4096_S32x256x64x64 (ix4 b c' h w) = _
  refine (shapeCast_abm_abcd_apply _ _ (by norm_num) b c' h w (pos h w) rfl).trans ?_
  have e := Pipeline.withArrays_arr spec0 launch0.win.arr_inj c (V0 m c) (fun w => (dats m 0 c).arrAt w cfg0.N) 5
  refine (congrFun e (ix3 b c' (pos h w))).trans ?_
  rw [arr_apply, sdiv_pos, smod_pos]

/-! ## The run -/

/-- Every weakly fair execution of the kernel program terminates with its result at the common function of the
    arguments and the arguments unchanged: the frame run, with the tail's result and the arguments read. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefPool.lean ====
/-
  The reference's pooling, read at an index.

  The reference reduces the [32, 256, 64, 64] input over its two spatial axes at once.  The indices that reduce to
  `(b, c)` are exactly `(b, c, h, w)`, that is, the image of the 4096 positions under `s ↦ (b, c, s / 64, s % 64)`,
  which is one-to-one.  So the host's maximum from -∞ is the maximum over the 4096 positions, its sum from 0 is the
  sum over them, and the mean, the sum divided by the word of 4096, is the sum times 1/4096 (division by a nonzero
  real is multiplication by its reciprocal on every extended real).
-/
import proofs.«112647_j73976516706321_2_alg».proof.Proof.Gen.ReferenceIdeal.Read
import proofs.«112647_j73976516706321_2_alg».proof.Proof.Pool
import proofs.«112647_j73976516706321_2_alg».proof.Proof.Spec
import proofs.«112647_j73976516706321_2_alg».proof.Proof.Consts
import Idealize.ShloMosaic.PureOps.Reduce
import Idealize.ShloMosaic.PureOps.Ideal.Laws

noncomputable section

open scoped BigOperators

namespace Cert.ReferenceIdeal.RefPool

open Cert.ReferenceIdeal Idealize.ShloMosaic Idealize.ShloMosaic.ValueIdx Cert.Spec

/-- The input's index at batch row `b`, channel `c` and position `s = 64 h + w`. -/
def src (b : Fin 32) (c : Fin 256) (s : Fin 4096) : S32x256x64x64.Idx := ix4 b c (sdiv s) (smod s)

theorem src_injective (b : Fin 32) (c : Fin 256) : Function.Injective (src b c) := by
  intro s s' e
  have h2 : s.val / 64 = s'.val / 64 := congrArg (fun i : S32x256x64x64.Idx => (i 2).val) e
  have h3 : s.val % 64 = s'.val % 64 := congrArg (fun i : S32x256x64x64.Idx => (i 3).val) e
  apply Fin.ext
  omega

/-- The indices that reduce to `(b, c)` are the positions' indices. -/
theorem filter_drop_eq (h : S32x256x64x64.ReducesTo [2, 3] S32x256) (b : Fin 32) (c : Fin 256) :
    (Finset.univ.filter fun i => h.drop i = ix2 b c) = Finset.univ.map ⟨src b c, src_injective b c⟩ := by
  ext i
  simp only [Finset.mem_filter, Finset.mem_univ, true_and, Finset.mem_map, Function.Embedding.coeFn_mk]
  constructor
  · intro hi
    have h0 : (i 0).val = b.val :=
      (h.drop_apply_val_of_eq i 0 0).symm.trans (congrArg (fun j : S32x256.Idx => (j 0).val) hi)
    have h1 : (i 1).val = c.val :=
      (h.drop_apply_val_of_eq i 1 1).symm.trans (congrArg (fun j : S32x256.Idx => (j 1).val) hi)
    have l2 : (i 2).val < 64 := (i 2).isLt
    have l3 : (i 3).val < 64 := (i 3).isLt
    refine ⟨⟨64 * (i 2).val + (i 3).val, by omega⟩, ?_⟩
    funext a
    apply Fin.ext
    match a with
    | ⟨0, _⟩ => exact h0.symm
    | ⟨1, _⟩ => exact h1.symm
    | ⟨2, _⟩ => show (64 * (i 2).val + (i 3).val) / 64 = (i 2).val; omega
    | ⟨3, _⟩ => show (64 * (i 2).val + (i 3).val) % 64 = (i 3).val; omega
  · rintro ⟨s, rfl⟩
    funext a
    apply Fin.ext
    match a with
    | ⟨0, _⟩ => exact h.drop_apply_val_of_eq (src b c s) 0 0
    | ⟨1, _⟩ => exact h.drop_apply_val_of_eq (src b c s) 1 1

/-- The reference's maximum over the spatial axes at `(b, c)`. -/
theorem max_apply (x : FVec Ideal S32x256x64x64 .f32) (b : Fin 32) (c : Fin 256) :
    Read.val_main_v0 (F := Ideal) x (ix2 b c) = rowMax fun s => x (src b c s) := by
  unfold Read.val_main_v0
  rw [Host.reduce_eq_fold, filter_drop_eq]
  show (Finset.univ.map _).fold max (Ideal.ofBits .f32 0xFF800000#32) x = _
  rw [Cert.Consts.ofBits_neg_inf, Cert.Pool.fold_max_eq_sup, Finset.sup_map]
  rfl

/-- The reference's sum over the spatial axes at `(b, c)`. -/
theorem sum_apply (x : FVec Ideal S32x256x64x64 .f32) (b : Fin 32) (c : Fin 256) :
    Read.val_main_v1 (F := Ideal) x (ix2 b c) = ∑ s, x (src b c s) := by
  unfold Read.val_main_v1 Host.reduceAdd
  rw [Ideal.hostReduceAdd_def]
  unfold Ideal.hostReduceAdd
  rw [filter_drop_eq, Finset.sum_map]
  show Ideal.ofBits .f32 0x00000000#32 + _ = _
  rw [Ideal.ofBits_zero_f32, zero_add]
  rfl

/-- The reference's mean over the spatial axes at `(b, c)`. -/
theorem mean_apply (x : FVec Ideal S32x256x64x64 .f32) (b : Fin 32) (c : Fin 256) :
    Read.val_main_v3 (F := Ideal) x (ix2 b c) = rowMean fun s => x (src b c s) := by
  rw [Read.val_main_v3_apply, Read.val_main_v2_apply, Read.val_main_cst_1_apply, sum_apply]
  show Ideal.div _ (Ideal.ofBits .f32 0x45800000#32) = _
  rw [Cert.Consts.ofBits_4096, Ideal.div_coe (by norm_num : (4096 : ℝ) ≠ 0)]
  rfl

end Cert.ReferenceIdeal.RefPool

end
-- ==== Proof.RefValue.lean ====
/-
  The reference's result is the common function.

  Operation by operation (the generated reads of the reference's run): the two pooled [32, 256] arrays are the row
  maxima and the row means; each goes through the transposed weights by a matrix product, a bias row, a maximum
  with 0, a second product and bias; the two outputs are added; `1 / (1 + exp (-z))` is the logistic function of
  `z` on the extended reals; the gate is broadcast over the spatial axes and multiplied with the input.
-/
import proofs.«112647_j73976516706321_2_alg».proof.Proof.RefPool

noncomputable section

open scoped BigOperators

namespace Cert.ReferenceIdeal.RefValue

open Cert.ReferenceIdeal Cert.ReferenceIdeal.Read Idealize.ShloMosaic Idealize.ShloMosaic.ValueIdx Cert.Spec
open Cert.ReferenceIdeal.RefPool

variable (x : FVec Ideal S32x256x64x64 .f32) (w1 : FVec Ideal S128x256 .f32) (b1 : FVec Ideal S128 .f32)
  (w2 : FVec Ideal S256x128 .f32) (b2 : FVec Ideal S256 .f32)

/-- The first weight matrix as a function of (hidden unit, channel). -/
abbrev W1 : Fin 128 → Fin 256 → EReal := fun k j => w1 (ix2 k j)
/-- The first bias. -/
abbrev B1 : Fin 128 → EReal := fun k => b1 (ix1 k)
/-- The second weight matrix as a function of (channel, hidden unit). -/
abbrev W2 : Fin 256 → Fin 128 → EReal := fun c k => w2 (ix2 c k)
/-- The second bias. -/
abbrev B2 : Fin 256 → EReal := fun c => b2 (ix1 c)

/-- The bias row broadcast over the batch rows reads the bias. -/
theorem bias1_apply (b : Fin 32) (k : Fin 128) : val_main_v7 (F := Ideal) b1 (ix2 b k) = b1 (ix1 k) := by
  rw [val_main_v7_apply, val_main_v6_apply]; exact congrArg b1 (funext fun a => by match a with | ⟨0, _⟩ => rfl)
theorem bias1'_apply (b : Fin 32) (k : Fin 128) : val_main_v18 (F := Ideal) b1 (ix2 b k) = b1 (ix1 k) := by
  rw [val_main_v18_apply, val_main_v17_apply]; exact congrArg b1 (funext fun a => by match a with | ⟨0, _⟩ => rfl)
theorem bias2_apply (b : Fin 32) (c : Fin 256) : val_main_v13 (F := Ideal) b2 (ix2 b c) = b2 (ix1 c) := by
  rw [val_main_v13_apply, val_main_v12_apply]; exact congrArg b2 (funext fun a => by match a with | ⟨0, _⟩ => rfl)
theorem bias2'_apply (b : Fin 32) (c : Fin 256) : val_main_v24 (F := Ideal) b2 (ix2 b c) = b2 (ix1 c) := by
  rw [val_main_v24_apply, val_main_v23_apply]; exact congrArg b2 (funext fun a => by match a with | ⟨0, _⟩ => rfl)

/-- The zero the maximum is taken with. -/
theorem zero0_apply (i : S32x128.Idx) : val_main_call0_v0 (F := Ideal) i = 0 := by
  rw [val_main_call0_v0_apply, val_main_call0_cst_apply]; exact Ideal.ofBits_zero_f32
theorem zero1_apply (i : S32x128.Idx) : val_main_call1_v0 (F := Ideal) i = 0 := by
  rw [val_main_call1_v0_apply, val_main_call1_cst_apply]; exact Ideal.ofBits_zero_f32

/-- The hidden layer on the row maxima. -/
theorem hid_max (b : Fin 32) (k : Fin 128) :
    val_main_v9 (F := Ideal) x w1 b1 (ix2 b k)
      = hidden (fun j => rowMax fun s => x (src b j s)) (W1 w1) (B1 b1) k := by
  rw [val_main_v9_apply, val_main_v8_apply, val_main_v5_apply, bias1_apply, zero0_apply]
  unfold Cert.Spec.hidden
  refine congrArg₂ max (congrArg₂ (· + ·) (Finset.sum_congr rfl fun j _ => ?_) rfl) rfl
  have e1 : lidx_main_v5 (ix2 b k) j = ix2 b j := by funext a; match a with | ⟨0, _⟩ => rfl | ⟨1, _⟩ => rfl
  rw [e1, max_apply, val_main_v4_apply]
  exact congrArg (_ * ·) (congrArg w1 (funext fun a => by match a with | ⟨0, _⟩ => rfl | ⟨1, _⟩ => rfl))

/-- The output layer on the row maxima. -/
theorem out_max (b : Fin 32) (c : Fin 256) :
    val_main_v14 (F := Ideal) x w1 b1 w2 b2 (ix2 b c)
      = mlp (fun j => rowMax fun s => x (src b j s)) (W1 w1) (B1 b1) (W2 w2) (B2 b2) c := by
  rw [val_main_v14_apply, val_main_v11_apply, bias2_apply]
  unfold mlp
  refine congrArg₂ (· + ·) (Finset.sum_congr rfl fun k _ => ?_) rfl
  have e1 : lidx_main_v11 (ix2 b c) k = ix2 b k := by funext a; match a with | ⟨0, _⟩ => rfl | ⟨1, _⟩ => rfl
  rw [e1, hid_max, val_main_v10_apply]
  exact congrArg (_ * ·) (congrArg w2 (funext fun a => by match a with | ⟨0, _⟩ => rfl | ⟨1, _⟩ => rfl))

/-- The hidden layer on the row means. -/
theorem hid_mean (b : Fin 32) (k : Fin 128) :
    val_main_v20 (F := Ideal) x w1 b1 (ix2 b k)
      = hidden (fun j => rowMean fun s => x (src b j s)) (W1 w1) (B1 b1) k := by
  rw [val_main_v20_apply, val_main_v19_apply, val_main_v16_apply, bias1'_apply, zero1_apply]
  unfold Cert.Spec.hidden
  refine congrArg₂ max (congrArg₂ (· + ·) (Finset.sum_congr rfl fun j _ => ?_) rfl) rfl
  have e1 : lidx_main_v16 (ix2 b k) j = ix2 b j := by funext a; match a with | ⟨0, _⟩ => rfl | ⟨1, _⟩ => rfl
  rw [e1, mean_apply, val_main_v15_apply]
  exact congrArg (_ * ·) (congrArg w1 (funext fun a => by match a with | ⟨0, _⟩ => rfl | ⟨1, _⟩ => rfl))

/-- The output layer on the row means. -/
theorem out_mean (b : Fin 32) (c : Fin 256) :
    val_main_v25 (F := Ideal) x w1 b1 w2 b2 (ix2 b c)
      = mlp (fun j => rowMean fun s => x (src b j s)) (W1 w1) (B1 b1) (W2 w2) (B2 b2) c := by
  rw [val_main_v25_apply, val_main_v22_apply, bias2'_apply]
  unfold mlp
  refine congrArg₂ (· + ·) (Finset.sum_congr rfl fun k _ => ?_) rfl
  have e1 : lidx_main_v22 (ix2 b c) k = ix2 b k := by funext a; match a with | ⟨0, _⟩ => rfl | ⟨1, _⟩ => rfl
  rw [e1, hid_mean, val_main_v21_apply]
  exact congrArg (_ * ·) (congrArg w2 (funext fun a => by match a with | ⟨0, _⟩ => rfl | ⟨1, _⟩ => rfl))

/-- The reference's gate. -/
theorem gate_ref (b : Fin 32) (c : Fin 256) :
    val_main_v32 (F := Ideal) x w1 b1 w2 b2 (ix2 b c)
      = gate (fun j s => x (src b j s)) (W1 w1) (B1 b1) (W2 w2) (B2 b2) c := by
  rw [val_main_v32_apply, val_main_v31_apply, val_main_cst_3_apply, val_main_v30_apply, val_main_v29_apply,
    val_main_cst_2_apply, val_main_v28_apply, val_main_v27_apply, val_main_v26_apply, out_max, out_mean]
  unfold gate Ideal.logistic
  show Ideal.div (Ideal.ofBits .f32 0x3F800000#32) (Ideal.ofBits .f32 0x3F800000#32 + Ideal.exp (-(_ + _))) = _
  rw [Cert.Consts.ofBits_one]

/-- The reference's result is the common function of its five arguments. -/
theorem ref_eq : val_main_v35 (F := Ideal) x w1 b1 w2 b2 = G4 x (W1 w1) (B1 b1) (W2 w2) (B2 b2) := by
  funext i
  obtain ⟨b, c, h, w, rfl⟩ : ∃ (b : Fin 32) (c : Fin 256) (h : Fin 64) (w : Fin 64), i = ix4 b c h w :=
    ⟨i 0, i 1, i 2, i 3, eq_ix4 i⟩
  rw [val_main_v35_apply, val_main_v34_apply, val_main_v33_apply]
  have e : idx_main_v33 (idx_main_v34 (ix4 b c h w)) = ix2 b c := by
    funext a; match a with | ⟨0, _⟩ => rfl | ⟨1, _⟩ => rfl
  rw [e, gate_ref]
  rfl

end Cert.ReferenceIdeal.RefValue

end
-- ==== Proof.lean ====
/-
  Global max and mean pooling over the spatial axes, a shared two-layer perceptron, a logistic gate and a
  broadcast multiply: the kernel's program and the plain reference compute ONE function on the extended reals.

  For a batch row b and a channel c let mx(b, c) be the maximum and av(b, c) the mean (the sum times 1/4096) of
  x[b, c, ·, ·] over its 4096 spatial positions.  With
      mlp v c = ∑ₖ max (∑ⱼ v j · w1[k, j] + b1[k]) 0 · w2[c, k] + b2[c]
  the gate is  g(b, c) = logistic (mlp mx(b, ·) c + mlp av(b, ·) c)  and the result is  g(b, c) · x[b, c, h, w]
  (`Spec`).

  The kernel's program merges the two spatial axes, works on two batch rows per grid point, visits the 4096
  positions in four chunks of 1024 with a running maximum from -∞ and a running sum from 0, scales the sum by
  the word of 2⁻¹², stacks the two pooled matrices into one [4, 256] matrix to run the perceptron once, and stores
  the gate times each chunk (`KPool`, `KGate`, `KBlock`); its sixteen blocks tile the result (`KArray`), and the
  host's reshapes and transposes around the region only re-index (`KValue`).  The reference reduces over both
  spatial axes at once, divides the sum by the word of 4096, runs the perceptron on each pooled matrix and spells
  the logistic function as 1 / (1 + exp (-z)) (`RefPool`, `RefValue`).  Maximum and sum regroup freely on the
  extended reals, division by 4096 is multiplication by 1/4096 there, a row of a matrix product depends only on
  the same row of its left operand, and a change of float format is the identity; no finiteness of the inputs is
  used.  No operation of the kernel's program is rewritten for the extended reals: its idealization is its own text.
-/
import proofs.«112647_j73976516706321_2_alg».proof.Defs
import proofs.«112647_j73976516706321_2_alg».proof.Proof.Gen.Kernel
import proofs.«112647_j73976516706321_2_alg».proof.Proof.Gen.Kernel.Frame
import proofs.«112647_j73976516706321_2_alg».proof.Proof.Gen.KernelIdeal
import proofs.«112647_j73976516706321_2_alg».proof.Proof.Gen.KernelIdeal.Frame
import proofs.«112647_j73976516706321_2_alg».proof.Proof.Gen.ReferenceIdeal
import proofs.«112647_j73976516706321_2_alg».proof.Proof.Gen.ReferenceIdeal.Run
import proofs.«112647_j73976516706321_2_alg».proof.Proof.Gen.ReferenceIdeal.Read
import proofs.«112647_j73976516706321_2_alg».proof.Proof.Gen.Pre_finite_inputs
import proofs.«112647_j73976516706321_2_alg».proof.Proof.KValue
import proofs.«112647_j73976516706321_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program, on words, runs and leaves its arguments unchanged. -/
theorem frame_kernel : Cert.frame_Kernel := fun m ρ _ => Cert.Kernel.Gen.frame m ρ

/-- The same program read on the extended reals runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the common function of those
    arguments: the kernel's run, and the reference's run whose term is that function. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.ref_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
